-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S9x512x512 : Shape := ⟨3, ![9, 512, 512]⟩
abbrev S9x512 : Shape := ⟨2, ![9, 512]⟩
abbrev S9x256x512 : Shape := ⟨3, ![9, 256, 512]⟩
abbrev S9x256 : Shape := ⟨2, ![9, 256]⟩
abbrev S9x128x256 : Shape := ⟨3, ![9, 128, 256]⟩
abbrev S9x128 : Shape := ⟨2, ![9, 128]⟩
abbrev S9x16x128 : Shape := ⟨3, ![9, 16, 128]⟩
abbrev S9x16 : Shape := ⟨2, ![9, 16]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S9x512x512 : S_.BroadcastsInDim S9x512x512 (![] : Fin 0 → Fin S9x512x512.rank)
  reducesTo_S9x512x512_S_d0_1_2 : S9x512x512.ReducesTo [0, 1, 2] S_
  bcast_S_S9x512 : S_.BroadcastsInDim S9x512 (![] : Fin 0 → Fin S9x512.rank)
  reducesTo_S9x512_S_d0_1 : S9x512.ReducesTo [0, 1] S_
  bcast_S_S9x256x512 : S_.BroadcastsInDim S9x256x512 (![] : Fin 0 → Fin S9x256x512.rank)
  reducesTo_S9x256x512_S_d0_1_2 : S9x256x512.ReducesTo [0, 1, 2] S_
  bcast_S_S9x256 : S_.BroadcastsInDim S9x256 (![] : Fin 0 → Fin S9x256.rank)
  reducesTo_S9x256_S_d0_1 : S9x256.ReducesTo [0, 1] S_
  bcast_S_S9x128x256 : S_.BroadcastsInDim S9x128x256 (![] : Fin 0 → Fin S9x128x256.rank)
  reducesTo_S9x128x256_S_d0_1_2 : S9x128x256.ReducesTo [0, 1, 2] S_
  bcast_S_S9x128 : S_.BroadcastsInDim S9x128 (![] : Fin 0 → Fin S9x128.rank)
  reducesTo_S9x128_S_d0_1 : S9x128.ReducesTo [0, 1] S_
  bcast_S_S9x16x128 : S_.BroadcastsInDim S9x16x128 (![] : Fin 0 → Fin S9x16x128.rank)
  reducesTo_S9x16x128_S_d0_1_2 : S9x16x128.ReducesTo [0, 1, 2] S_
  bcast_S_S9x16 : S_.BroadcastsInDim S9x16 (![] : Fin 0 → Fin S9x16.rank)
  reducesTo_S9x16_S_d0_1 : S9x16.ReducesTo [0, 1] S_

variable [Facts]

def fn_part2 {F : FTy → Type} [FloatOps F] (main_arg8 : FVec F S9x16x128 .f32) (main_arg9 : FVec F S9x16 .f32) (main_v33 : IVec S_ 1) : IVec S_ 1 :=
  let main_v34 : FVec F S9x16x128 .f32 := Host.absf main_arg8
  let main_cst_12 : FVec F S_ .f32 := constant S_ .f32 0x7F800000#32
  let main_v35 : FVec F S9x16x128 .f32 := broadcastInDim S9x16x128 ![] bcast_S_S9x16x128 main_cst_12
  let main_v36 : IVec S9x16x128 1 := cmpf .olt main_v34 main_v35
  let main_c_13 : IVec S_ 1 := constantI S_ 1 1#1
  let main_v37 : IVec S_ 1 := (fun x v => Host.reduce IntOp.andi x v reducesTo_S9x16x128_S_d0_1_2 h_S_) main_v36 main_c_13
  let main_v38 : IVec S_ 1 := andi main_v33 main_v37
  let main_v39 : FVec F S9x16 .f32 := Host.absf main_arg9
  let main_cst_14 : FVec F S_ .f32 := constant S_ .f32 0x7F800000#32
  let main_v40 : FVec F S9x16 .f32 := broadcastInDim S9x16 ![] bcast_S_S9x16 main_cst_14
  let main_v41 : IVec S9x16 1 := cmpf .olt main_v39 main_v40
  let main_c_15 : IVec S_ 1 := constantI S_ 1 1#1
  let main_v42 : IVec S_ 1 := (fun x v => Host.reduce IntOp.andi x v reducesTo_S9x16_S_d0_1 h_S_) main_v41 main_c_15
  let main_v43 : IVec S_ 1 := andi main_v38 main_v42
  main_v43

def fn_part1 {F : FTy → Type} [FloatOps F] (main_arg5 : FVec F S9x256 .f32) (main_arg6 : FVec F S9x128x256 .f32) (main_arg7 : FVec F S9x128 .f32) (main_arg8 : FVec F S9x16x128 .f32) (main_arg9 : FVec F S9x16 .f32) (main_v13 : IVec S_ 1) (main_v16 : IVec S9x256x512 1) : IVec S_ 1 :=
  let main_c_5 : IVec S_ 1 := constantI S_ 1 1#1
  let main_v17 : IVec S_ 1 := (fun x v => Host.reduce IntOp.andi x v reducesTo_S9x256x512_S_d0_1_2 h_S_) main_v16 main_c_5
  let main_v18 : IVec S_ 1 := andi main_v13 main_v17
  let main_v19 : FVec F S9x256 .f32 := Host.absf main_arg5
  let main_cst_6 : FVec F S_ .f32 := constant S_ .f32 0x7F800000#32
  let main_v20 : FVec F S9x256 .f32 := broadcastInDim S9x256 ![] bcast_S_S9x256 main_cst_6
  let main_v21 : IVec S9x256 1 := cmpf .olt main_v19 main_v20
  let main_c_7 : IVec S_ 1 := constantI S_ 1 1#1
  let main_v22 : IVec S_ 1 := (fun x v => Host.reduce IntOp.andi x v reducesTo_S9x256_S_d0_1 h_S_) main_v21 main_c_7
  let main_v23 : IVec S_ 1 := andi main_v18 main_v22
  let main_v24 : FVec F S9x128x256 .f32 := Host.absf main_arg6
  let main_cst_8 : FVec F S_ .f32 := constant S_ .f32 0x7F800000#32
  let main_v25 : FVec F S9x128x256 .f32 := broadcastInDim S9x128x256 ![] bcast_S_S9x128x256 main_cst_8
  let main_v26 : IVec S9x128x256 1 := cmpf .olt main_v24 main_v25
  let main_c_9 : IVec S_ 1 := constantI S_ 1 1#1
  let main_v27 : IVec S_ 1 := (fun x v => Host.reduce IntOp.andi x v reducesTo_S9x128x256_S_d0_1_2 h_S_) main_v26 main_c_9
  let main_v28 : IVec S_ 1 := andi main_v23 main_v27
  let main_v29 : FVec F S9x128 .f32 := Host.absf main_arg7
  let main_cst_10 : FVec F S_ .f32 := constant S_ .f32 0x7F800000#32
  let main_v30 : FVec F S9x128 .f32 := broadcastInDim S9x128 ![] bcast_S_S9x128 main_cst_10
  let main_v31 : IVec S9x128 1 := cmpf .olt main_v29 main_v30
  let main_c_11 : IVec S_ 1 := constantI S_ 1 1#1
  let main_v32 : IVec S_ 1 := (fun x v => Host.reduce IntOp.andi x v reducesTo_S9x128_S_d0_1 h_S_) main_v31 main_c_11
  let main_v33 : IVec S_ 1 := andi main_v28 main_v32
  fn_part2 (F := F) main_arg8 main_arg9 main_v33

def fn {F : FTy → Type} [FloatOps F] (main_arg0 : FVec F S16384x512 .f32) (main_arg1 : IVec S16384 32) (main_arg2 : FVec F S9x512x512 .f32) (main_arg3 : FVec F S9x512 .f32) (main_arg4 : FVec F S9x256x512 .f32) (main_arg5 : FVec F S9x256 .f32) (main_arg6 : FVec F S9x128x256 .f32) (main_arg7 : FVec F S9x128 .f32) (main_arg8 : FVec F S9x16x128 .f32) (main_arg9 : FVec F S9x16 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S9x512x512 .f32 := Host.absf main_arg2
  let main_cst_0 : FVec F S_ .f32 := constant S_ .f32 0x7F800000#32
  let main_v5 : FVec F S9x512x512 .f32 := broadcastInDim S9x512x512 ![] bcast_S_S9x512x512 main_cst_0
  let main_v6 : IVec S9x512x512 1 := cmpf .olt main_v4 main_v5
  let main_c_1 : IVec S_ 1 := constantI S_ 1 1#1
  let main_v7 : IVec S_ 1 := (fun x v => Host.reduce IntOp.andi x v reducesTo_S9x512x512_S_d0_1_2 h_S_) main_v6 main_c_1
  let main_v8 : IVec S_ 1 := andi main_v3 main_v7
  let main_v9 : FVec F S9x512 .f32 := Host.absf main_arg3
  let main_cst_2 : FVec F S_ .f32 := constant S_ .f32 0x7F800000#32
  let main_v10 : FVec F S9x512 .f32 := broadcastInDim S9x512 ![] bcast_S_S9x512 main_cst_2
  let main_v11 : IVec S9x512 1 := cmpf .olt main_v9 main_v10
  let main_c_3 : IVec S_ 1 := constantI S_ 1 1#1
  let main_v12 : IVec S_ 1 := (fun x v => Host.reduce IntOp.andi x v reducesTo_S9x512_S_d0_1 h_S_) main_v11 main_c_3
  let main_v13 : IVec S_ 1 := andi main_v8 main_v12
  let main_v14 : FVec F S9x256x512 .f32 := Host.absf main_arg4
  let main_cst_4 : FVec F S_ .f32 := constant S_ .f32 0x7F800000#32
  let main_v15 : FVec F S9x256x512 .f32 := broadcastInDim S9x256x512 ![] bcast_S_S9x256x512 main_cst_4
  let main_v16 : IVec S9x256x512 1 := cmpf .olt main_v14 main_v15
  fn_part1 (F := F) main_arg5 main_arg6 main_arg7 main_arg8 main_arg9 main_v13 main_v16
-- ==== Kernel.lean ====
abbrev S16384x512 : Shape := ⟨2, ![16384, 512]⟩
abbrev S16384 : Shape := ⟨1, ![16384]⟩
abbrev S9x512x512 : Shape := ⟨3, ![9, 512, 512]⟩
abbrev S9x512 : Shape := ⟨2, ![9, 512]⟩
abbrev S9x256x512 : Shape := ⟨3, ![9, 256, 512]⟩
abbrev S9x256 : Shape := ⟨2, ![9, 256]⟩
abbrev S9x128x256 : Shape := ⟨3, ![9, 128, 256]⟩
abbrev S9x128 : Shape := ⟨2, ![9, 128]⟩
abbrev S9x16x128 : Shape := ⟨3, ![9, 16, 128]⟩
abbrev S9x16 : Shape := ⟨2, ![9, 16]⟩
abbrev S9x1x512 : Shape := ⟨3, ![9, 1, 512]⟩
abbrev S9x1x256 : Shape := ⟨3, ![9, 1, 256]⟩
abbrev S9x1x128 : Shape := ⟨3, ![9, 1, 128]⟩
abbrev S9x1x16 : Shape := ⟨3, ![9, 1, 16]⟩
abbrev S9x16384x16 : Shape := ⟨3, ![9, 16384, 16]⟩
abbrev S2048x512 : Shape := ⟨2, ![2048, 512]⟩
abbrev S1x512x512 : Shape := ⟨3, ![1, 512, 512]⟩
abbrev S1x1x512 : Shape := ⟨3, ![1, 1, 512]⟩
abbrev S1x256x512 : Shape := ⟨3, ![1, 256, 512]⟩
abbrev S1x1x256 : Shape := ⟨3, ![1, 1, 256]⟩
abbrev S1x128x256 : Shape := ⟨3, ![1, 128, 256]⟩
abbrev S1x1x128 : Shape := ⟨3, ![1, 1, 128]⟩
abbrev S1x16x128 : Shape := ⟨3, ![1, 16, 128]⟩
abbrev S1x1x16 : Shape := ⟨3, ![1, 1, 16]⟩
abbrev S1x2048x16 : Shape := ⟨3, ![1, 2048, 16]⟩
abbrev S512x512 : Shape := ⟨2, ![512, 512]⟩
abbrev S1x512 : Shape := ⟨2, ![1, 512]⟩
abbrev S256x512 : Shape := ⟨2, ![256, 512]⟩
abbrev S2048x256 : Shape := ⟨2, ![2048, 256]⟩
abbrev S1x256 : Shape := ⟨2, ![1, 256]⟩
abbrev S128x256 : Shape := ⟨2, ![128, 256]⟩
abbrev S2048x128 : Shape := ⟨2, ![2048, 128]⟩
abbrev S1x128 : Shape := ⟨2, ![1, 128]⟩
abbrev S16x128 : Shape := ⟨2, ![16, 128]⟩
abbrev S2048x16 : Shape := ⟨2, ![2048, 16]⟩
abbrev S1x16 : Shape := ⟨2, ![1, 16]⟩
abbrev S_ : Shape := ⟨0, ![]⟩
abbrev S16384x1 : Shape := ⟨2, ![16384, 1]⟩
abbrev S16384x2 : Shape := ⟨2, ![16384, 2]⟩
abbrev S16384x16 : Shape := ⟨2, ![16384, 16]⟩

abbrev nBuf : Space → Nat
  | .hbm => 51
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S9x512x512, .f32⟩
  | .hbm, ⟨3, _⟩ => ⟨S9x512, .f32⟩
  | .hbm, ⟨4, _⟩ => ⟨S9x256x512, .f32⟩
  | .hbm, ⟨5, _⟩ => ⟨S9x256, .f32⟩
  | .hbm, ⟨6, _⟩ => ⟨S9x128x256, .f32⟩
  | .hbm, ⟨7, _⟩ => ⟨S9x128, .f32⟩
  | .hbm, ⟨8, _⟩ => ⟨S9x16x128, .f32⟩
  | .hbm, ⟨9, _⟩ => ⟨S9x16, .f32⟩
  | .hbm, ⟨10, _⟩ => ⟨S9x1x512, .f32⟩
  | .hbm, ⟨11, _⟩ => ⟨S9x1x256, .f32⟩
  | .hbm, ⟨12, _⟩ => ⟨S9x1x128, .f32⟩
  | .hbm, ⟨13, _⟩ => ⟨S9x1x16, .f32⟩
  | .hbm, ⟨14, _⟩ => ⟨S9x16384x16, .f32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .i32⟩
  | .hbm, ⟨35, _⟩ => ⟨S16384x2, .i32⟩
  | .hbm, ⟨36, _⟩ => ⟨S16384x16, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x16, .f32⟩
  | .hbm, ⟨50, _⟩ => ⟨S16384x16, .f32⟩
  | .local _ .vmem, ⟨0, _⟩ => ⟨S2048x512, .f32⟩
  | .local _ .vmem, ⟨1, _⟩ => ⟨S2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x256x512, .f32⟩
  | .local _ .vmem, ⟨7, _⟩ => ⟨S1x256x512, .f32⟩
  | .local _ .vmem, ⟨8, _⟩ => ⟨S1x1x256, .f32⟩
  | .local _ .vmem, ⟨9, _⟩ => ⟨S1x1x256, .f32⟩
  | .local _ .vmem, ⟨10, _⟩ => ⟨S1x128x256, .f32⟩
  | .local _ .vmem, ⟨11, _⟩ => ⟨S1x128x256, .f32⟩
  | .local _ .vmem, ⟨12, _⟩ => ⟨S1x1x128, .f32⟩
  | .local _ .vmem, ⟨13, _⟩ => ⟨S1x1x128, .f32⟩
  | .local _ .vmem, ⟨14, _⟩ => ⟨S1x16x128, .f32⟩
  | .local _ .vmem, ⟨15, _⟩ => ⟨S1x16x128, .f32⟩
  | .local _ .vmem, ⟨16, _⟩ => ⟨S1x1x16, .f32⟩
  | .local _ .vmem, ⟨17, _⟩ => ⟨S1x1x16, .f32⟩
  | .local _ .vmem, ⟨18, _⟩ => ⟨S1x2048x16, .f32⟩
  | .local _ .vmem, ⟨19, _⟩ => ⟨S1x2048x16, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S9x512_S9x1x512 : S9x512.ShapeCasts S9x1x512
  shapeCasts_S9x256_S9x1x256 : S9x256.ShapeCasts S9x1x256
  shapeCasts_S9x128_S9x1x128 : S9x128.ShapeCasts S9x1x128
  shapeCasts_S9x16_S9x1x16 : S9x16.ShapeCasts S9x1x16
  inb_S2048x512_S2048x512_0_0 : ∀ a, (![0, 0] : Fin 2 → Nat) a + S2048x512.size a ≤ S2048x512.size a
  h_S2048x512 : 0 < S2048x512.numel
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2048x128 : S1x128.Broadcasts S2048x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  broadcasts_S1x16_S2048x16 : S1x16.Broadcasts S2048x16
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  shapeCasts_S2048x16_S1x2048x16 : S2048x16.ShapeCasts S1x2048x16
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x16_S16384_d1 : S16384x16.ReducesTo [1] S16384
  h_S_ : 0 < S_.numel
  bcast_S16384x1_S16384x16_0_1 : S16384x1.BroadcastsInDim S16384x16 (![0, 1] : Fin 2 → Fin S16384x16.rank)
  dot_S2048x512_S512x512_S2048x512_1_1_0_0_n_n_wf : DotDims.WF S2048x512 S512x512 S2048x512 [1] [1] [0] [0] [] []
  dot_S2048x512_S256x512_S2048x256_1_1_0_0_n_n_wf : DotDims.WF S2048x512 S256x512 S2048x256 [1] [1] [0] [0] [] []
  dot_S2048x256_S128x256_S2048x128_1_1_0_0_n_n_wf : DotDims.WF S2048x256 S128x256 S2048x128 [1] [1] [0] [0] [] []
  dot_S2048x128_S16x128_S2048x16_1_1_0_0_n_n_wf : DotDims.WF S2048x128 S16x128 S2048x16 [1] [1] [0] [0] [] []
  gather_S9x16384x16_S16384x2_S16384x16_1_01_n_n_01_1_1116_wf : GatherDims.WF S9x16384x16 S16384x2 S16384x16 [1] [0, 1] [] [0, 1] [] 1 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S9x512x512.size a
  hwx0_1 : ∀ i : grid0.Coords, EltTy.bits .f32 = 32 ∨ (Rect.block (s := S9x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S9x1x512.size a
  hwx0_2 : ∀ i : grid0.Coords, EltTy.bits .f32 = 32 ∨ (Rect.block (s := S9x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S9x256x512.size a
  hwx0_3 : ∀ i : grid0.Coords, EltTy.bits .f32 = 32 ∨ (Rect.block (s := S9x256x512) S1x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S9x1x256.size a
  hwx0_4 : ∀ i : grid0.Coords, EltTy.bits .f32 = 32 ∨ (Rect.block (s := S9x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S9x128x256.size a
  hwx0_5 : ∀ i : grid0.Coords, EltTy.bits .f32 = 32 ∨ (Rect.block (s := S9x128x256) S1x128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S9x1x128.size a
  hwx0_6 : ∀ i : grid0.Coords, EltTy.bits .f32 = 32 ∨ (Rect.block (s := S9x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x128.size a ≤ S9x16x128.size a
  hwx0_7 : ∀ i : grid0.Coords, EltTy.bits .f32 = 32 ∨ (Rect.block (s := S9x16x128) S1x16x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x16.size a ≤ S9x1x16.size a
  hwx0_8 : ∀ i : grid0.Coords, EltTy.bits .f32 = 32 ∨ (Rect.block (s := S9x1x16) S1x1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x16.size a ≤ S9x16384x16.size a
  hwx0_9 : ∀ i : grid0.Coords, EltTy.bits .f32 = 32 ∨ (Rect.block (s := S9x16384x16) S1x2048x16.size (cc0_transform_9 i) (hinb0_9 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S2048x128_S16x128_S2048x16_1_1_0_0_n_n : DotDims S2048x128 S16x128 S2048x16 where
  lhsContracting := [1]
  rhsContracting := [1]
  lhsNonContracting := [0]
  rhsNonContracting := [0]
  lhsBatch := []
  rhsBatch := []
  wf := dot_S2048x128_S16x128_S2048x16_1_1_0_0_n_n_wf
def gather_S9x16384x16_S16384x2_S16384x16_1_01_n_n_01_1_1116 : GatherDims S9x16384x16 S16384x2 S16384x16 where
  offsetDims := [1]
  collapsedSliceDims := [0, 1]
  operandBatchingDims := []
  startIndicesBatchingDims := []
  startIndexMap := [0, 1]
  indexVectorDim := 1
  sliceSizes := ![1, 1, 16]
  wf := gather_S9x16384x16_S16384x2_S16384x16_1_01_n_n_01_1_1116_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x16x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1x16.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x2048x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S9x512x512 : Shape := ⟨3, ![9, 512, 512]⟩
abbrev S9x512 : Shape := ⟨2, ![9, 512]⟩
abbrev S9x256x512 : Shape := ⟨3, ![9, 256, 512]⟩
abbrev S9x256 : Shape := ⟨2, ![9, 256]⟩
abbrev S9x128x256 : Shape := ⟨3, ![9, 128, 256]⟩
abbrev S9x128 : Shape := ⟨2, ![9, 128]⟩
abbrev S9x16x128 : Shape := ⟨3, ![9, 16, 128]⟩
abbrev S9x16 : Shape := ⟨2, ![9, 16]⟩
abbrev S_ : Shape := ⟨0, ![]⟩
abbrev S9x512x16384 : Shape := ⟨3, ![9, 512, 16384]⟩
abbrev S9x16384x512 : Shape := ⟨3, ![9, 16384, 512]⟩
abbrev S9x1x512 : Shape := ⟨3, ![9, 1, 512]⟩
abbrev S9x16384x256 : Shape := ⟨3, ![9, 16384, 256]⟩
abbrev S9x1x256 : Shape := ⟨3, ![9, 1, 256]⟩
abbrev S9x16384x128 : Shape := ⟨3, ![9, 16384, 128]⟩
abbrev S9x1x128 : Shape := ⟨3, ![9, 1, 128]⟩
abbrev S9x16384x16 : Shape := ⟨3, ![9, 16384, 16]⟩
abbrev S9x1x16 : Shape := ⟨3, ![9, 1, 16]⟩
abbrev S16384x1 : Shape := ⟨2, ![16384, 1]⟩
abbrev S16384x2 : Shape := ⟨2, ![16384, 2]⟩
abbrev S16384x16 : Shape := ⟨2, ![16384, 16]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S9x512x512, .f32⟩
  | .hbm, ⟨3, _⟩ => ⟨S9x512, .f32⟩
  | .hbm, ⟨4, _⟩ => ⟨S9x256x512, .f32⟩
  | .hbm, ⟨5, _⟩ => ⟨S9x256, .f32⟩
  | .hbm, ⟨6, _⟩ => ⟨S9x128x256, .f32⟩
  | .hbm, ⟨7, _⟩ => ⟨S9x128, .f32⟩
  | .hbm, ⟨8, _⟩ => ⟨S9x16x128, .f32⟩
  | .hbm, ⟨9, _⟩ => ⟨S9x16, .f32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S9x512x16384, .f32⟩
  | .hbm, ⟨14, _⟩ => ⟨S9x16384x512, .f32⟩
  | .hbm, ⟨15, _⟩ => ⟨S9x1x512, .f32⟩
  | .hbm, ⟨16, _⟩ => ⟨S9x16384x512, .f32⟩
  | .hbm, ⟨17, _⟩ => ⟨S9x16384x512, .f32⟩
  | .hbm, ⟨18, _⟩ => ⟨S_, .f32⟩
  | .hbm, ⟨19, _⟩ => ⟨S9x16384x512, .f32⟩
  | .hbm, ⟨20, _⟩ => ⟨S9x16384x512, .f32⟩
  | .hbm, ⟨21, _⟩ => ⟨S9x16384x256, .f32⟩
  | .hbm, ⟨22, _⟩ => ⟨S9x1x256, .f32⟩
  | .hbm, ⟨23, _⟩ => ⟨S9x16384x256, .f32⟩
  | .hbm, ⟨24, _⟩ => ⟨S9x16384x256, .f32⟩
  | .hbm, ⟨25, _⟩ => ⟨S_, .f32⟩
  | .hbm, ⟨26, _⟩ => ⟨S9x16384x256, .f32⟩
  | .hbm, ⟨27, _⟩ => ⟨S9x16384x256, .f32⟩
  | .hbm, ⟨28, _⟩ => ⟨S9x16384x128, .f32⟩
  | .hbm, ⟨29, _⟩ => ⟨S9x1x128, .f32⟩
  | .hbm, ⟨30, _⟩ => ⟨S9x16384x128, .f32⟩
  | .hbm, ⟨31, _⟩ => ⟨S9x16384x128, .f32⟩
  | .hbm, ⟨32, _⟩ => ⟨S_, .f32⟩
  | .hbm, ⟨33, _⟩ => ⟨S9x16384x128, .f32⟩
  | .hbm, ⟨34, _⟩ => ⟨S9x16384x128, .f32⟩
  | .hbm, ⟨35, _⟩ => ⟨S9x16384x16, .f32⟩
  | .hbm, ⟨36, _⟩ => ⟨S9x1x16, .f32⟩
  | .hbm, ⟨37, _⟩ => ⟨S9x16384x16, .f32⟩
  | .hbm, ⟨38, _⟩ => ⟨S9x16384x16, .f32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S16384x1, .i32⟩
  | .hbm, ⟨56, _⟩ => ⟨S16384x2, .i32⟩
  | .hbm, ⟨57, _⟩ => ⟨S16384x16, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384x1, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x16, .f32⟩
  | .hbm, ⟨71, _⟩ => ⟨S16384x16, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_cst : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_0 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  transposes_S9x512x16384_S9x16384x512_0_2_1 : S9x512x16384.Transposes [0, 2, 1] S9x16384x512
  bcast_S9x512_S9x1x512_0_2 : S9x512.BroadcastsInDim S9x1x512 (![0, 2] : Fin 2 → Fin S9x1x512.rank)
  bcast_S9x1x512_S9x16384x512_0_1_2 : S9x1x512.BroadcastsInDim S9x16384x512 (![0, 1, 2] : Fin 3 → Fin S9x16384x512.rank)
  bcast_S_S9x16384x512 : S_.BroadcastsInDim S9x16384x512 (![] : Fin 0 → Fin S9x16384x512.rank)
  bcast_S9x256_S9x1x256_0_2 : S9x256.BroadcastsInDim S9x1x256 (![0, 2] : Fin 2 → Fin S9x1x256.rank)
  bcast_S9x1x256_S9x16384x256_0_1_2 : S9x1x256.BroadcastsInDim S9x16384x256 (![0, 1, 2] : Fin 3 → Fin S9x16384x256.rank)
  bcast_S_S9x16384x256 : S_.BroadcastsInDim S9x16384x256 (![] : Fin 0 → Fin S9x16384x256.rank)
  bcast_S9x128_S9x1x128_0_2 : S9x128.BroadcastsInDim S9x1x128 (![0, 2] : Fin 2 → Fin S9x1x128.rank)
  bcast_S9x1x128_S9x16384x128_0_1_2 : S9x1x128.BroadcastsInDim S9x16384x128 (![0, 1, 2] : Fin 3 → Fin S9x16384x128.rank)
  bcast_S_S9x16384x128 : S_.BroadcastsInDim S9x16384x128 (![] : Fin 0 → Fin S9x16384x128.rank)
  bcast_S9x16_S9x1x16_0_2 : S9x16.BroadcastsInDim S9x1x16 (![0, 2] : Fin 2 → Fin S9x1x16.rank)
  bcast_S9x1x16_S9x16384x16_0_1_2 : S9x1x16.BroadcastsInDim S9x16384x16 (![0, 1, 2] : Fin 3 → Fin S9x16384x16.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x16_S16384_d1 : S16384x16.ReducesTo [1] S16384
  h_S_ : 0 < S_.numel
  bcast_S16384x1_S16384x16_0_1 : S16384x1.BroadcastsInDim S16384x16 (![0, 1] : Fin 2 → Fin S16384x16.rank)
  dot_S9x512x512_S16384x512_S9x512x16384_2_1_01_0_n_n_wf : DotDims.WF S9x512x512 S16384x512 S9x512x16384 [2] [1] [0, 1] [0] [] []
  dot_S9x16384x512_S9x256x512_S9x16384x256_2_2_1_1_0_0_wf : DotDims.WF S9x16384x512 S9x256x512 S9x16384x256 [2] [2] [1] [1] [0] [0]
  dot_S9x16384x256_S9x128x256_S9x16384x128_2_2_1_1_0_0_wf : DotDims.WF S9x16384x256 S9x128x256 S9x16384x128 [2] [2] [1] [1] [0] [0]
  dot_S9x16384x128_S9x16x128_S9x16384x16_2_2_1_1_0_0_wf : DotDims.WF S9x16384x128 S9x16x128 S9x16384x16 [2] [2] [1] [1] [0] [0]
  gather_S9x16384x16_S16384x2_S16384x16_1_01_n_n_01_1_1116_wf : GatherDims.WF S9x16384x16 S16384x2 S16384x16 [1] [0, 1] [] [0, 1] [] 1 ![1, 1, 16]

variable [Facts₀]

def dot_S9x512x512_S16384x512_S9x512x16384_2_1_01_0_n_n : DotDims S9x512x512 S16384x512 S9x512x16384 where
  lhsContracting := [2]
  rhsContracting := [1]
  lhsNonContracting := [0, 1]
  rhsNonContracting := [0]
  lhsBatch := []
  rhsBatch := []
  wf := dot_S9x512x512_S16384x512_S9x512x16384_2_1_01_0_n_n_wf
def dot_S9x16384x512_S9x256x512_S9x16384x256_2_2_1_1_0_0 : DotDims S9x16384x512 S9x256x512 S9x16384x256 where
  lhsContracting := [2]
  rhsContracting := [2]
  lhsNonContracting := [1]
  rhsNonContracting := [1]
  lhsBatch := [0]
  rhsBatch := [0]
  wf := dot_S9x16384x512_S9x256x512_S9x16384x256_2_2_1_1_0_0_wf
def dot_S9x16384x256_S9x128x256_S9x16384x128_2_2_1_1_0_0 : DotDims S9x16384x256 S9x128x256 S9x16384x128 where
  lhsContracting := [2]
  rhsContracting := [2]
  lhsNonContracting := [1]
  rhsNonContracting := [1]
  lhsBatch := [0]
  rhsBatch := [0]
  wf := dot_S9x16384x256_S9x128x256_S9x16384x128_2_2_1_1_0_0_wf
def dot_S9x16384x128_S9x16x128_S9x16384x16_2_2_1_1_0_0 : DotDims S9x16384x128 S9x16x128 S9x16384x16 where
  lhsContracting := [2]
  rhsContracting := [2]
  lhsNonContracting := [1]
  rhsNonContracting := [1]
  lhsBatch := [0]
  rhsBatch := [0]
  wf := dot_S9x16384x128_S9x16x128_S9x16384x16_2_2_1_1_0_0_wf
def gather_S9x16384x16_S16384x2_S16384x16_1_01_n_n_01_1_1116 : GatherDims S9x16384x16 S16384x2 S16384x16 where
  offsetDims := [1]
  collapsedSliceDims := [0, 1]
  operandBatchingDims := []
  startIndicesBatchingDims := []
  startIndexMap := [0, 1]
  indexVectorDim := 1
  sliceSizes := ![1, 1, 16]
  wf := gather_S9x16384x16_S16384x2_S16384x16_1_01_n_n_01_1_1116_wf

class Facts : Prop extends Facts₀ where

variable [Facts]
-- ==== Proof.Perceptron.lean ====
/-
  The experts' logits as ONE function of the argument arrays, on the extended reals.

  Expert `e` (of nine) is a four-layer perceptron applied to a row `x(r, ·)` of 512 features: three dense layers, each
  followed by the rectifier `max(·, 0)`, and a last dense layer. A dense layer's entry `o` is the inner product of
  the layer's input with row `o` of the expert's weight matrix, plus entry `o` of the expert's bias:

      h₁(o) = max(∑ₖ x(r, k) · W₁(e, o, k) + b₁(e, o), 0)        512 → 512
      h₂(o) = max(∑ₖ h₁(k)   · W₂(e, o, k) + b₂(e, o), 0)        512 → 256
      h₃(o) = max(∑ₖ h₂(k)   · W₃(e, o, k) + b₃(e, o), 0)        256 → 128
      ℓ(o)  =     ∑ₖ h₃(k)   · W₄(e, o, k) + b₄(e, o)            128 → 16

  `logits` is the `[9, 16384, 16]` array of every expert applied to every row. Sums are finite sums in the commutative
  monoid of the extended reals, so no order of accumulation and no tiling of the rows enters; nothing here needs the
  inputs finite.
-/
import Idealize.ShloMosaic.PureOps.Ideal
import Idealize.ShloMosaic.Lib.ValueIdx

noncomputable section

namespace Cert.Experts

open Idealize.ShloMosaic Idealize.ShloMosaic.ValueIdx

/-- The rectifier's threshold: the f32 word of `0.0`, kept as a word (both programs compare with this same word). -/
abbrev zeroWord : EReal := Ideal.ofBits .f32 0x00000000#32

/-- One entry of a dense layer: the inner product of the input `a` with a weight row `w`, plus the bias entry `b`. -/
def dense {K : ℕ} (a w : Fin K → EReal) (b : EReal) : EReal := (∑ k : Fin K, a k * w k) + b

/-- The rectifier `max(z, 0)`. -/
def relu (z : EReal) : EReal := max z zeroWord

/-- A dense layer from `K` to `N` features: entry `o` from weight row `o` and bias entry `o`. -/
def layer {K N : ℕ} (a : Fin K → EReal) (w : Fin N → Fin K → EReal) (b : Fin N → EReal) : Fin N → EReal :=
  fun o => dense a (w o) (b o)

/-- One expert on one row: the four layers, the first three rectified. -/
def perceptron (a : Fin 512 → EReal)
    (w1 : Fin 512 → Fin 512 → EReal) (c1 : Fin 512 → EReal) (w2 : Fin 256 → Fin 512 → EReal) (c2 : Fin 256 → EReal)
    (w3 : Fin 128 → Fin 256 → EReal) (c3 : Fin 128 → EReal) (w4 : Fin 16 → Fin 128 → EReal) (c4 : Fin 16 → EReal) :
    Fin 16 → EReal :=
  layer (fun k => relu (layer (fun k => relu (layer (fun k => relu (layer a w1 c1 k)) w2 c2 k)) w3 c3 k)) w4 c4

/-- Expert `e` on row `r` of `x`, entry `o`: the expert's weights and biases are slab `e` of the stacked arrays. -/
def logitAt (x : (⟨2, ![16384, 512]⟩ : Shape).Idx → EReal)
    (W1 : (⟨3, ![9, 512, 512]⟩ : Shape).Idx → EReal) (b1 : (⟨2, ![9, 512]⟩ : Shape).Idx → EReal)
    (W2 : (⟨3, ![9, 256, 512]⟩ : Shape).Idx → EReal) (b2 : (⟨2, ![9, 256]⟩ : Shape).Idx → EReal)
    (W3 : (⟨3, ![9, 128, 256]⟩ : Shape).Idx → EReal) (b3 : (⟨2, ![9, 128]⟩ : Shape).Idx → EReal)
    (W4 : (⟨3, ![9, 16, 128]⟩ : Shape).Idx → EReal) (b4 : (⟨2, ![9, 16]⟩ : Shape).Idx → EReal)
    (e : Fin 9) (r : Fin 16384) (o : Fin 16) : EReal :=
  perceptron (fun k => x (ix2 r k))
    (fun o k => W1 (ix3 e o k)) (fun o => b1 (ix2 e o)) (fun o k => W2 (ix3 e o k)) (fun o => b2 (ix2 e o))
    (fun o k => W3 (ix3 e o k)) (fun o => b3 (ix2 e o)) (fun o k => W4 (ix3 e o k)) (fun o => b4 (ix2 e o)) o

/-- Every expert on every row: the `[9, 16384, 16]` array both programs gather from. -/
def logits (x : (⟨2, ![16384, 512]⟩ : Shape).Idx → EReal)
    (W1 : (⟨3, ![9, 512, 512]⟩ : Shape).Idx → EReal) (b1 : (⟨2, ![9, 512]⟩ : Shape).Idx → EReal)
    (W2 : (⟨3, ![9, 256, 512]⟩ : Shape).Idx → EReal) (b2 : (⟨2, ![9, 256]⟩ : Shape).Idx → EReal)
    (W3 : (⟨3, ![9, 128, 256]⟩ : Shape).Idx → EReal) (b3 : (⟨2, ![9, 128]⟩ : Shape).Idx → EReal)
    (W4 : (⟨3, ![9, 16, 128]⟩ : Shape).Idx → EReal) (b4 : (⟨2, ![9, 16]⟩ : Shape).Idx → EReal) :
    (⟨3, ![9, 16384, 16]⟩ : Shape).Idx → EReal :=
  fun i => logitAt x W1 b1 W2 b2 W3 b3 W4 b4 (i 0) (i 1) (i 2)

theorem logits_ix3 (x : (⟨2, ![16384, 512]⟩ : Shape).Idx → EReal)
    (W1 : (⟨3, ![9, 512, 512]⟩ : Shape).Idx → EReal) (b1 : (⟨2, ![9, 512]⟩ : Shape).Idx → EReal)
    (W2 : (⟨3, ![9, 256, 512]⟩ : Shape).Idx → EReal) (b2 : (⟨2, ![9, 256]⟩ : Shape).Idx → EReal)
    (W3 : (⟨3, ![9, 128, 256]⟩ : Shape).Idx → EReal) (b3 : (⟨2, ![9, 128]⟩ : Shape).Idx → EReal)
    (W4 : (⟨3, ![9, 16, 128]⟩ : Shape).Idx → EReal) (b4 : (⟨2, ![9, 16]⟩ : Shape).Idx → EReal)
    (e : Fin 9) (r : Fin 16384) (o : Fin 16) :
    logits x W1 b1 W2 b2 W3 b3 W4 b4 (ix3 e r o) = logitAt x W1 b1 W2 b2 W3 b3 W4 b4 e r o := rfl

end Cert.Experts

end
-- ==== Proof.LibMatmulRowsByRowsOf.lean ====
/-
  A matrix product whose right operand is contracted on its LAST axis, into the zero accumulator, read at an entry.

  On the extended reals a `tpu.matmul` of an `[M, K]` left operand and an `[N, K]` right operand (`x · wᵀ`: the
  contraction on both operands' second axis, no batch axis), accumulated into the zero splat, is at entry `(p, q)`
  the inner product of row `p` of the left operand with row `q` of the right one, `∑ₖ l(p, k) · r(q, k)`: no rounding,
  no order of accumulation. The dimension record is kept abstract; what is asked of it is that it contracts one axis of
  extent `K` and reads its operands at `(p, k)` and `(q, k)` — four facts a concrete record gives by unfolding.
  Imports only the library.
-/
import Idealize.ShloMosaic.PureOps.Ideal.Laws
import Idealize.ShloMosaic.Lib.ValueIdx

namespace Idealize.ShloMosaic.MatmulRowsByRowsOf

open Idealize.ShloMosaic Idealize.ShloMosaic.ValueIdx

/-- `matmul D prec l r 0` at `(p, q)` is `∑ k, l (p, k) * r (q, k)`. -/
theorem matmul_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![M, K]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsByRowsOf
-- ==== Proof.DenseBlock.lean ====
/-
  One dense layer of the kernel's body, read at an entry, on the extended reals.

  The body computes a layer on a whole block of `M` rows at once: the rows-by-rows product `a · wᵀ` of the block's
  `[M, K]` input with the expert's `[N, K]` weight matrix (loaded as a `[1, N, K]` slab, its unit axis dropped, both
  operands passed through a change of float format that is the identity here), accumulated from zero, plus the expert's
  bias row (loaded as `[1, 1, N]`, cast to `[1, N]`, broadcast over the `M` rows); the hidden layers then take the
  maximum with a zero splat. At entry `(p, q)` that is `dense` of row `p` of the input, row `q` of the weight slab and
  entry `q` of the bias — and its rectification. General in the three extents.
-/
import proofs.«168519_j25220047962428_1_alg».proof.Proof.Perceptron
import proofs.«168519_j25220047962428_1_alg».proof.Proof.LibMatmulRowsByRowsOf
import Idealize.ShloMosaic.Lib.ValueLayout
import Idealize.ShloMosaic.Lib.Pipeline.Value

noncomputable section

namespace Cert.Experts

open Idealize.ShloMosaic Idealize.ShloMosaic.ValueIdx

variable {M K N : ℕ}

/-- The affine part of a layer at entry `(p, q)`. -/
theorem dense_block_apply (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (a : FVec Ideal ⟨2, ![M, K]⟩ .f32) (w : (⟨3, ![1, N, K]⟩ : Shape).Idx → EReal)
    (b : (⟨3, ![1, 1, N]⟩ : Shape).Idx → EReal)
    (hw : (⟨3, ![1, N, K]⟩ : Shape).ShapeCasts ⟨2, ![N, K]⟩) (hb : (⟨3, ![1, 1, N]⟩ : Shape).ShapeCasts ⟨2, ![1, N]⟩)
    (hbb : (⟨2, ![1, N]⟩ : Shape).Broadcasts ⟨2, ![M, N]⟩) (hlt : FTy.bits .bf16 < FTy.bits .f32)
    (p : Fin M) (q : Fin N) :
    addf (matmul D none (truncf .bf16 a hlt) (truncf .bf16 (shapeCast (α := Ideal .f32) ⟨2, ![N, K]⟩ w hw) hlt)
          (constant (F := Ideal) ⟨2, ![M, N]⟩ .f32 0x00000000#32))
        (broadcastTo ⟨2, ![M, N]⟩ (shapeCast (α := Ideal .f32) ⟨2, ![1, N]⟩ b hb) hbb) (ix2 p q)
      = dense (fun k => a (ix2 p k)) (fun k => w (ix3 (0 : Fin 1) q k)) (b (ix3 (0 : Fin 1) (0 : Fin 1) q)) := by
  refine (addf_apply _ _ (ix2 p q)).trans ?_
  unfold dense
  rw [broadcastTo_1b_ab_apply, shapeCast_1ab_ab_apply]
  refine congrArg (· + b (ix3 (0 : Fin 1) (0 : Fin 1) q)) ?_
  refine (MatmulRowsByRowsOf.matmul_zero_apply D hr hs hl0 hl1 hr0 hr1 none _ _ p q).trans ?_
  refine Finset.sum_congr rfl fun k _ => ?_
  refine congrArg (a (ix2 p k) * ·) ?_
  exact shapeCast_1ab_ab_apply w hw q k

/-- A hidden layer at entry `(p, q)`: the affine part, rectified. -/
theorem relu_dense_block_apply (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (a : FVec Ideal ⟨2, ![M, K]⟩ .f32) (w : (⟨3, ![1, N, K]⟩ : Shape).Idx → EReal)
    (b : (⟨3, ![1, 1, N]⟩ : Shape).Idx → EReal)
    (hw : (⟨3, ![1, N, K]⟩ : Shape).ShapeCasts ⟨2, ![N, K]⟩) (hb : (⟨3, ![1, 1, N]⟩ : Shape).ShapeCasts ⟨2, ![1, N]⟩)
    (hbb : (⟨2, ![1, N]⟩ : Shape).Broadcasts ⟨2, ![M, N]⟩) (hlt : FTy.bits .bf16 < FTy.bits .f32)
    (p : Fin M) (q : Fin N) :
    maximumf (addf (matmul D none (truncf .bf16 a hlt) (truncf .bf16 (shapeCast (α := Ideal .f32) ⟨2, ![N, K]⟩ w hw) hlt)
          (constant (F := Ideal) ⟨2, ![M, N]⟩ .f32 0x00000000#32))
        (broadcastTo ⟨2, ![M, N]⟩ (shapeCast (α := Ideal .f32) ⟨2, ![1, N]⟩ b hb) hbb))
      (broadcast ⟨2, ![M, N]⟩ (Scalar.ofBits (F := Ideal) .f32 0x00000000#32)) (ix2 p q)
      = relu (dense (fun k => a (ix2 p k)) (fun k => w (ix3 (0 : Fin 1) q k)) (b (ix3 (0 : Fin 1) (0 : Fin 1) q))) := by
  refine (maximumf_apply _ _ (ix2 p q)).trans ?_
  unfold relu
  exact congrArg (max · zeroWord) (dense_block_apply D hr hs hl0 hl1 hr0 hr1 a w b hw hb hbb hlt p q)

end Cert.Experts

end
-- ==== Proof.KernelPayload.lean ====
/-
  What the kernel's body stores, read at an entry, on the extended reals.

  At one grid point the body loads a block of 2048 rows of `x`, one expert's four weight slabs and four bias rows, and
  stores a `[1, 2048, 16]` block. Entry `(u, p, q)` of that block is the four-layer perceptron of row `p` of the loaded
  rows under the loaded weights and biases, at output `q`: each matrix product is an inner product of rows (the change
  of float format before it is the identity on the extended reals), each bias row is the same for every row of the block,
  and the rectifier is the maximum with the zero word.
-/
import proofs.«168519_j25220047962428_1_alg».proof.Proof.Gen.KernelIdeal.Skeleton
import proofs.«168519_j25220047962428_1_alg».proof.Proof.DenseBlock

noncomputable section

namespace Cert.KernelIdeal.Body

open Cert.KernelIdeal Cert.KernelIdeal.Gen Idealize.ShloMosaic Idealize.ShloMosaic.ValueIdx Cert.Experts

/-- Layer 1's dimension numbers: the left operand is read at (entry's row, k), the right at (entry's column, k). -/
abbrev D1 : DotDims S2048x512 S512x512 S2048x512 := dot_S2048x512_S512x512_S2048x512_1_1_0_0_n_n
theorem D1_l0 (j : S2048x512.Idx) (q : D1.contr.Idx) : (D1.lhsIdx j q 0).val = (j 0).val := by
  unfold DotDims.lhsIdx
  rw [dif_neg (show ¬(0 : Fin S2048x512.rank) ∈ D1.lhsBatch by decide), dif_pos (show (0 : Fin S2048x512.rank) ∈ D1.lhsNonContracting by decide)]
  rfl
theorem D1_l1 (j : S2048x512.Idx) (q : D1.contr.Idx) : (D1.lhsIdx j q 1).val = (q ⟨0, by decide⟩).val :=
  D1.lhsIdx_val_of_single rfl j q
theorem D1_r0 (j : S2048x512.Idx) (q : D1.contr.Idx) : (D1.rhsIdx j q 0).val = (j 1).val := by
  unfold DotDims.rhsIdx
  rw [dif_neg (show ¬(0 : Fin S512x512.rank) ∈ D1.rhsBatch by decide), dif_pos (show (0 : Fin S512x512.rank) ∈ D1.rhsNonContracting by decide)]
  rfl
theorem D1_r1 (j : S2048x512.Idx) (q : D1.contr.Idx) : (D1.rhsIdx j q 1).val = (q ⟨0, by decide⟩).val :=
  D1.rhsIdx_val_of_single rfl j q

/-- Layer 2's dimension numbers: the left operand is read at (entry's row, k), the right at (entry's column, k). -/
abbrev D2 : DotDims S2048x512 S256x512 S2048x256 := dot_S2048x512_S256x512_S2048x256_1_1_0_0_n_n
theorem D2_l0 (j : S2048x256.Idx) (q : D2.contr.Idx) : (D2.lhsIdx j q 0).val = (j 0).val := by
  unfold DotDims.lhsIdx
  rw [dif_neg (show ¬(0 : Fin S2048x512.rank) ∈ D2.lhsBatch by decide), dif_pos (show (0 : Fin S2048x512.rank) ∈ D2.lhsNonContracting by decide)]
  rfl
theorem D2_l1 (j : S2048x256.Idx) (q : D2.contr.Idx) : (D2.lhsIdx j q 1).val = (q ⟨0, by decide⟩).val :=
  D2.lhsIdx_val_of_single rfl j q
theorem D2_r0 (j : S2048x256.Idx) (q : D2.contr.Idx) : (D2.rhsIdx j q 0).val = (j 1).val := by
  unfold DotDims.rhsIdx
  rw [dif_neg (show ¬(0 : Fin S256x512.rank) ∈ D2.rhsBatch by decide), dif_pos (show (0 : Fin S256x512.rank) ∈ D2.rhsNonContracting by decide)]
  rfl
theorem D2_r1 (j : S2048x256.Idx) (q : D2.contr.Idx) : (D2.rhsIdx j q 1).val = (q ⟨0, by decide⟩).val :=
  D2.rhsIdx_val_of_single rfl j q

/-- Layer 3's dimension numbers: the left operand is read at (entry's row, k), the right at (entry's column, k). -/
abbrev D3 : DotDims S2048x256 S128x256 S2048x128 := dot_S2048x256_S128x256_S2048x128_1_1_0_0_n_n
theorem D3_l0 (j : S2048x128.Idx) (q : D3.contr.Idx) : (D3.lhsIdx j q 0).val = (j 0).val := by
  unfold DotDims.lhsIdx
  rw [dif_neg (show ¬(0 : Fin S2048x256.rank) ∈ D3.lhsBatch by decide), dif_pos (show (0 : Fin S2048x256.rank) ∈ D3.lhsNonContracting by decide)]
  rfl
theorem D3_l1 (j : S2048x128.Idx) (q : D3.contr.Idx) : (D3.lhsIdx j q 1).val = (q ⟨0, by decide⟩).val :=
  D3.lhsIdx_val_of_single rfl j q
theorem D3_r0 (j : S2048x128.Idx) (q : D3.contr.Idx) : (D3.rhsIdx j q 0).val = (j 1).val := by
  unfold DotDims.rhsIdx
  rw [dif_neg (show ¬(0 : Fin S128x256.rank) ∈ D3.rhsBatch by decide), dif_pos (show (0 : Fin S128x256.rank) ∈ D3.rhsNonContracting by decide)]
  rfl
theorem D3_r1 (j : S2048x128.Idx) (q : D3.contr.Idx) : (D3.rhsIdx j q 1).val = (q ⟨0, by decide⟩).val :=
  D3.rhsIdx_val_of_single rfl j q

/-- Layer 4's dimension numbers: the left operand is read at (entry's row, k), the right at (entry's column, k). -/
abbrev D4 : DotDims S2048x128 S16x128 S2048x16 := dot_S2048x128_S16x128_S2048x16_1_1_0_0_n_n
theorem D4_l0 (j : S2048x16.Idx) (q : D4.contr.Idx) : (D4.lhsIdx j q 0).val = (j 0).val := by
  unfold DotDims.lhsIdx
  rw [dif_neg (show ¬(0 : Fin S2048x128.rank) ∈ D4.lhsBatch by decide), dif_pos (show (0 : Fin S2048x128.rank) ∈ D4.lhsNonContracting by decide)]
  rfl
theorem D4_l1 (j : S2048x16.Idx) (q : D4.contr.Idx) : (D4.lhsIdx j q 1).val = (q ⟨0, by decide⟩).val :=
  D4.lhsIdx_val_of_single rfl j q
theorem D4_r0 (j : S2048x16.Idx) (q : D4.contr.Idx) : (D4.rhsIdx j q 0).val = (j 1).val := by
  unfold DotDims.rhsIdx
  rw [dif_neg (show ¬(0 : Fin S16x128.rank) ∈ D4.rhsBatch by decide), dif_pos (show (0 : Fin S16x128.rank) ∈ D4.rhsNonContracting by decide)]
  rfl
theorem D4_r1 (j : S2048x16.Idx) (q : D4.contr.Idx) : (D4.rhsIdx j q 1).val = (q ⟨0, by decide⟩).val :=
  D4.rhsIdx_val_of_single rfl j q

/-- The third layer's affine part (what the first 60 statements of the body leave) at entry `(p, q)`: the third dense
    layer of the rectified second of the rectified first, of row `p` of the loaded rows. -/
theorem hidden3_pre_apply (X0 : Vec Ideal S2048x512 .f32) (X1 : Vec Ideal S1x512x512 .f32) (X2 : Vec Ideal S1x1x512 .f32)
    (X3 : Vec Ideal S1x256x512 .f32) (X4 : Vec Ideal S1x1x256 .f32) (X5 : Vec Ideal S1x128x256 .f32)
    (X6 : Vec Ideal S1x1x128 .f32) (p : Fin 2048) (q : Fin 128) :
    k0_pay2 (F := Ideal) X0 X1 X2 X3 X4 X5 X6 (ix2 p q)
      = layer (fun k => relu (layer (fun k => relu (layer (fun k => X0 (ix2 p k))
            (fun o k => X1 (ix3 (0 : Fin 1) o k)) (fun o => X2 (ix3 (0 : Fin 1) (0 : Fin 1) o)) k))
          (fun o k => X3 (ix3 (0 : Fin 1) o k)) (fun o => X4 (ix3 (0 : Fin 1) (0 : Fin 1) o)) k))
        (fun o k => X5 (ix3 (0 : Fin 1) o k)) (fun o => X6 (ix3 (0 : Fin 1) (0 : Fin 1) o)) q := by
  unfold k0_pay2
  refine (dense_block_apply (M := 2048) (K := 256) (N := 128) D3 rfl rfl D3_l0 D3_l1 D3_r0 D3_r1 _ X5 X6
    shapeCasts_S1x128x256_S128x256 shapeCasts_S1x1x128_S1x128 broadcasts_S1x128_S2048x128 bitsLt_bf16_f32 p q).trans ?_
  refine congrArg (fun a => dense a (fun k => X5 (ix3 (0 : Fin 1) q k)) (X6 (ix3 (0 : Fin 1) (0 : Fin 1) q)))
    (funext fun k2 => ?_)
  refine (relu_dense_block_apply (M := 2048) (K := 512) (N := 256) D2 rfl rfl D2_l0 D2_l1 D2_r0 D2_r1 _ X3 X4
    shapeCasts_S1x256x512_S256x512 shapeCasts_S1x1x256_S1x256 broadcasts_S1x256_S2048x256 bitsLt_bf16_f32 p k2).trans ?_
  refine congrArg (fun a => relu (dense a (fun k => X3 (ix3 (0 : Fin 1) k2 k)) (X4 (ix3 (0 : Fin 1) (0 : Fin 1) k2))))
    (funext fun k1 => ?_)
  exact relu_dense_block_apply (M := 2048) (K := 512) (N := 512) D1 rfl rfl D1_l0 D1_l1 D1_r0 D1_r1 X0 X1 X2
    shapeCasts_S1x512x512_S512x512 shapeCasts_S1x1x512_S1x512 broadcasts_S1x512_S2048x512 bitsLt_bf16_f32 p k1

/-- The stored block at entry `(u, p, q)` from the third layer's affine part `V`: the last dense layer of the
    rectified `V`, at row `p` and output `q` (the block's leading unit axis is added by a cast). -/
theorem last_layer_apply (V : FVec Ideal S2048x128 .f32) (X7 : Vec Ideal S1x16x128 .f32) (X8 : Vec Ideal S1x1x16 .f32)
    (u : Fin 1) (p : Fin 2048) (q : Fin 16) :
    k0_pay1 (F := Ideal) V (Scalar.ofBits .f32 0x00000000#32) X7 X8 (ix3 u p q)
      = layer (fun k => relu (V (ix2 p k))) (fun o k => X7 (ix3 (0 : Fin 1) o k))
          (fun o => X8 (ix3 (0 : Fin 1) (0 : Fin 1) o)) q := by
  unfold k0_pay1
  refine (shapeCast_ab_1ab_apply _ shapeCasts_S2048x16_S1x2048x16 u p q).trans ?_
  exact dense_block_apply (M := 2048) (K := 128) (N := 16) D4 rfl rfl D4_l0 D4_l1 D4_r0 D4_r1 _ X7 X8
    shapeCasts_S1x16x128_S16x128 shapeCasts_S1x1x16_S1x16 broadcasts_S1x16_S2048x16 bitsLt_bf16_f32 p q

/-- The stored block at entry `(u, p, q)`: the perceptron of row `p` of the loaded rows, under the loaded expert. -/
theorem payload_apply (X0 : Vec Ideal S2048x512 .f32) (X1 : Vec Ideal S1x512x512 .f32) (X2 : Vec Ideal S1x1x512 .f32)
    (X3 : Vec Ideal S1x256x512 .f32) (X4 : Vec Ideal S1x1x256 .f32) (X5 : Vec Ideal S1x128x256 .f32)
    (X6 : Vec Ideal S1x1x128 .f32) (X7 : Vec Ideal S1x16x128 .f32) (X8 : Vec Ideal S1x1x16 .f32)
    (u : Fin 1) (p : Fin 2048) (q : Fin 16) :
    k0_pay1 (F := Ideal) (k0_pay2 X0 X1 X2 X3 X4 X5 X6) (Scalar.ofBits .f32 0x00000000#32) X7 X8 (ix3 u p q)
      = perceptron (fun k => X0 (ix2 p k))
          (fun o k => X1 (ix3 (0 : Fin 1) o k)) (fun o => X2 (ix3 (0 : Fin 1) (0 : Fin 1) o))
          (fun o k => X3 (ix3 (0 : Fin 1) o k)) (fun o => X4 (ix3 (0 : Fin 1) (0 : Fin 1) o))
          (fun o k => X5 (ix3 (0 : Fin 1) o k)) (fun o => X6 (ix3 (0 : Fin 1) (0 : Fin 1) o))
          (fun o k => X7 (ix3 (0 : Fin 1) o k)) (fun o => X8 (ix3 (0 : Fin 1) (0 : Fin 1) o)) q := by
  refine (last_layer_apply _ X7 X8 u p q).trans ?_
  unfold perceptron
  exact congrArg (fun a => layer a (fun o k => X7 (ix3 (0 : Fin 1) o k)) (fun o => X8 (ix3 (0 : Fin 1) (0 : Fin 1) o)) q)
    (funext fun k => congrArg relu (hidden3_pre_apply X0 X1 X2 X3 X4 X5 X6 p k))

end Cert.KernelIdeal.Body

end
-- ==== Proof.LibCastMiddleUnit.lean ====
/-
  A unit axis inserted in the middle by a shape cast, read at coordinates.

  An `[a, b]` array cast to `[a, 1, b]` (a stack of `a` rows viewed as `a` one-row slabs) reads, at `(i, u, j)`, the
  operand at `(i, j)`: both indices have the same row-major position `i · b + j`. General in the two extents and the
  element type; imports only the library.
-/
import Idealize.ShloMosaic.Lib.Pipeline.Value
import Idealize.ShloMosaic.Lib.ValueIdx

namespace Idealize.ShloMosaic.CastMiddleUnit

open Idealize.ShloMosaic Idealize.ShloMosaic.ValueIdx

/-- `shapeCast [a, 1, b] x` at `(i, u, j)` is `x (i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.CastMiddleUnit
-- ==== Proof.KernelLogits.lean ====
/-
  The kernel's output array after the region: the experts' logits of the argument arrays.

  The grid has 72 points, one per (tile of 2048 rows, expert). At a point the body receives that tile of `x`, the
  expert's four weight slabs and four bias rows, and writes back the `[1, 2048, 16]` block at (expert, tile, 0) of the
  `[9, 16384, 16]` output. By the body's value at an entry (the perceptron of the block's loads) each written block is
  the restriction of ONE function of the argument arrays, `Experts.logits`; the 72 blocks tile the output, so after the
  region the output array is that function. The bias blocks come from `[9, 1, n]` arrays, the bias arguments with a unit
  axis inserted on the host before the call.
-/
import proofs.«168519_j25220047962428_1_alg».proof.Proof.Gen.KernelIdeal.Frame
import proofs.«168519_j25220047962428_1_alg».proof.Proof.KernelPayload
import proofs.«168519_j25220047962428_1_alg».proof.Proof.LibCastMiddleUnit
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Cert.Experts
open Idealize.SL Idealize.SL.Sem
open Idealize.ShloMosaic.Pipeline (Dat Cfg Window)

variable (m : (ℓ : Loc nD τ sig) → Buf (Elt Ideal) ℓ) (ρ : Dev nD → PrngReg)

/-! ## The printed index maps, decided over the 72 grid points

  Grid point `t` is a pair (row tile, expert). The output block's index is (expert, row tile, 0); the rows' window
  follows the row tile, every weight and bias window follows the expert. -/

theorem idx_w0 : ∀ t : Fin cfg0.N, win0_0.index t (0 : Fin 2) = win0_9.index t (1 : Fin 3) ∧ win0_0.index t (1 : Fin 2) = 0 :=
  (by decide +kernel : ∀ t : Fin grid0.N, _)
theorem idx_w1 : ∀ t : Fin cfg0.N, win0_1.index t (0 : Fin 3) = win0_9.index t (0 : Fin 3)
    ∧ win0_1.index t (1 : Fin 3) = 0 ∧ win0_1.index t (2 : Fin 3) = 0 :=
  (by decide +kernel : ∀ t : Fin grid0.N, _)
theorem idx_w2 : ∀ t : Fin cfg0.N, win0_2.index t (0 : Fin 3) = win0_9.index t (0 : Fin 3)
    ∧ win0_2.index t (1 : Fin 3) = 0 ∧ win0_2.index t (2 : Fin 3) = 0 :=
  (by decide +kernel : ∀ t : Fin grid0.N, _)
theorem idx_w3 : ∀ t : Fin cfg0.N, win0_3.index t (0 : Fin 3) = win0_9.index t (0 : Fin 3)
    ∧ win0_3.index t (1 : Fin 3) = 0 ∧ win0_3.index t (2 : Fin 3) = 0 :=
  (by decide +kernel : ∀ t : Fin grid0.N, _)
theorem idx_w4 : ∀ t : Fin cfg0.N, win0_4.index t (0 : Fin 3) = win0_9.index t (0 : Fin 3)
    ∧ win0_4.index t (1 : Fin 3) = 0 ∧ win0_4.index t (2 : Fin 3) = 0 :=
  (by decide +kernel : ∀ t : Fin grid0.N, _)
theorem idx_w5 : ∀ t : Fin cfg0.N, win0_5.index t (0 : Fin 3) = win0_9.index t (0 : Fin 3)
    ∧ win0_5.index t (1 : Fin 3) = 0 ∧ win0_5.index t (2 : Fin 3) = 0 :=
  (by decide +kernel : ∀ t : Fin grid0.N, _)
theorem idx_w6 : ∀ t : Fin cfg0.N, win0_6.index t (0 : Fin 3) = win0_9.index t (0 : Fin 3)
    ∧ win0_6.index t (1 : Fin 3) = 0 ∧ win0_6.index t (2 : Fin 3) = 0 :=
  (by decide +kernel : ∀ t : Fin grid0.N, _)
theorem idx_w7 : ∀ t : Fin cfg0.N, win0_7.index t (0 : Fin 3) = win0_9.index t (0 : Fin 3)
    ∧ win0_7.index t (1 : Fin 3) = 0 ∧ win0_7.index t (2 : Fin 3) = 0 :=
  (by decide +kernel : ∀ t : Fin grid0.N, _)
theorem idx_w8 : ∀ t : Fin cfg0.N, win0_8.index t (0 : Fin 3) = win0_9.index t (0 : Fin 3)
    ∧ win0_8.index t (1 : Fin 3) = 0 ∧ win0_8.index t (2 : Fin 3) = 0 :=
  (by decide +kernel : ∀ t : Fin grid0.N, _)
theorem idx_w9 : ∀ t : Fin cfg0.N, win0_9.index t (2 : Fin 3) = 0 ∧ win0_9.index t (0 : Fin 3) ≤ 8 ∧ win0_9.index t (1 : Fin 3) ≤ 7 :=
  (by decide +kernel : ∀ t : Fin grid0.N, _)

/-- Every (expert, row tile) pair is some grid point's. -/
theorem idx_onto : ∀ (q0 : Fin 9) (q1 : Fin 8), ∃ t : Fin cfg0.N, win0_9.index t = ![q0.val, q1.val, 0] :=
  (by decide +kernel : ∀ (q0 : Fin 9) (q1 : Fin 8), ∃ t : Fin grid0.N, win0_9.index t = ![q0.val, q1.val, 0])

/-! ## Each block, read where the output block's position says -/

/-- Entry `(u, p, q)` of the output block at a point sits at (the point's expert, row tile · 2048 + p, q) of the array. -/
theorem emb9 (t : Fin cfg0.N) (u : Fin 1) (p : Fin 2048) (q : Fin 16) (e : Fin 9) (r : Fin 16384)
    (he : e.val = win0_9.index t (0 : Fin 3)) (hr : r.val = win0_9.index t (1 : Fin 3) * 2048 + p.val) :
    ((cfg0.win 9).blk t).view.emb (ix3 u p q) = ix3 e r q := by
  obtain ⟨h92, _, _⟩ := idx_w9 t
  funext a; apply Fin.ext
  match a with
  | ⟨0, _⟩ => show win0_9.index t (0 : Fin 3) * 1 + 1 * u.val = e.val; have := u.isLt; omega
  | ⟨1, _⟩ => show win0_9.index t (1 : Fin 3) * 2048 + 1 * p.val = r.val; omega
  | ⟨2, _⟩ => show win0_9.index t (2 : Fin 3) * 16 + 1 * q.val = q.val; omega

/-- The rows' block at a point is the point's tile of 2048 rows of `x`. -/
theorem rows0 (c : Dev nD) (t : Fin cfg0.N) (p : Fin 2048) (r : Fin 16384)
    (hr : r.val = win0_9.index t (1 : Fin 3) * 2048 + p.val) (k : Fin 512) :
    iblk m c 0 t (ix2 p k) = V m c main_arg0 (ix2 r k) := by
  obtain ⟨h00, h01⟩ := idx_w0 t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-- Window 1's block at a point is slab `e` of its stacked weight array, `e` the point's expert. -/
theorem weights1 (c : Dev nD) (t : Fin cfg0.N) (e : Fin 9) (he : e.val = win0_9.index t (0 : Fin 3)) (o : Fin 512) (k : Fin 512) :
    iblk m c 1 t (ix3 (0 : Fin 1) o k) = V m c main_arg2 (ix3 e o k) := by
  obtain ⟨h0, h1, h2⟩ := idx_w1 t
  show V m c main_arg2 (((cfg0.win 1).blk t).view.emb (ix3 (0 : Fin 1) o k)) = V m c main_arg2 (ix3 e o k)
  refine congrArg (V m c main_arg2) (funext fun a => Fin.ext ?_)
  match a with
  | ⟨0, _⟩ => show win0_1.index t (0 : Fin 3) * 1 + 1 * 0 = e.val; omega
  | ⟨1, _⟩ => show win0_1.index t (1 : Fin 3) * 512 + 1 * o.val = o.val; omega
  | ⟨2, _⟩ => show win0_1.index t (2 : Fin 3) * 512 + 1 * k.val = k.val; omega

/-- Window 3's block at a point is slab `e` of its stacked weight array, `e` the point's expert. -/
theorem weights3 (c : Dev nD) (t : Fin cfg0.N) (e : Fin 9) (he : e.val = win0_9.index t (0 : Fin 3)) (o : Fin 256) (k : Fin 512) :
    iblk m c 3 t (ix3 (0 : Fin 1) o k) = V m c main_arg4 (ix3 e o k) := by
  obtain ⟨h0, h1, h2⟩ := idx_w3 t
  show V m c main_arg4 (((cfg0.win 3).blk t).view.emb (ix3 (0 : Fin 1) o k)) = V m c main_arg4 (ix3 e o k)
  refine congrArg (V m c main_arg4) (funext fun a => Fin.ext ?_)
  match a with
  | ⟨0, _⟩ => show win0_3.index t (0 : Fin 3) * 1 + 1 * 0 = e.val; omega
  | ⟨1, _⟩ => show win0_3.index t (1 : Fin 3) * 256 + 1 * o.val = o.val; omega
  | ⟨2, _⟩ => show win0_3.index t (2 : Fin 3) * 512 + 1 * k.val = k.val; omega

/-- Window 5's block at a point is slab `e` of its stacked weight array, `e` the point's expert. -/
theorem weights5 (c : Dev nD) (t : Fin cfg0.N) (e : Fin 9) (he : e.val = win0_9.index t (0 : Fin 3)) (o : Fin 128) (k : Fin 256) :
    iblk m c 5 t (ix3 (0 : Fin 1) o k) = V m c main_arg6 (ix3 e o k) := by
  obtain ⟨h0, h1, h2⟩ := idx_w5 t
  show V m c main_arg6 (((cfg0.win 5).blk t).view.emb (ix3 (0 : Fin 1) o k)) = V m c main_arg6 (ix3 e o k)
  refine congrArg (V m c main_arg6) (funext fun a => Fin.ext ?_)
  match a with
  | ⟨0, _⟩ => show win0_5.index t (0 : Fin 3) * 1 + 1 * 0 = e.val; omega
  | ⟨1, _⟩ => show win0_5.index t (1 : Fin 3) * 128 + 1 * o.val = o.val; omega
  | ⟨2, _⟩ => show win0_5.index t (2 : Fin 3) * 256 + 1 * k.val = k.val; omega

/-- Window 7's block at a point is slab `e` of its stacked weight array, `e` the point's expert. -/
theorem weights7 (c : Dev nD) (t : Fin cfg0.N) (e : Fin 9) (he : e.val = win0_9.index t (0 : Fin 3)) (o : Fin 16) (k : Fin 128) :
    iblk m c 7 t (ix3 (0 : Fin 1) o k) = V m c main_arg8 (ix3 e o k) := by
  obtain ⟨h0, h1, h2⟩ := idx_w7 t
  show V m c main_arg8 (((cfg0.win 7).blk t).view.emb (ix3 (0 : Fin 1) o k)) = V m c main_arg8 (ix3 e o k)
  refine congrArg (V m c main_arg8) (funext fun a => Fin.ext ?_)
  match a with
  | ⟨0, _⟩ => show win0_7.index t (0 : Fin 3) * 1 + 1 * 0 = e.val; omega
  | ⟨1, _⟩ => show win0_7.index t (1 : Fin 3) * 16 + 1 * o.val = o.val; omega
  | ⟨2, _⟩ => show win0_7.index t (2 : Fin 3) * 128 + 1 * k.val = k.val; omega

/-- The bias array window 2 stages is the `[9, 512]` bias argument with a unit axis inserted (a host reshape before the call). -/
theorem slabs_main_v0 (c : Dev nD) : (V m c main_v0 : S9x1x512.Idx → EReal)
    = shapeCast S9x1x512 (m ((c : Thread nD τ).loc main_arg3)) Facts₀.shapeCasts_S9x512_S9x1x512 := by
  show StableHlo.after hostOps0 (fun b => m (c, b)) (Proc.devRef .tc main_v0) = _
  after_results
  rfl

/-- Window 2's block at a point is row `e` of the bias argument, `e` the point's expert. -/
theorem bias2 (c : Dev nD) (t : Fin cfg0.N) (e : Fin 9) (he : e.val = win0_9.index t (0 : Fin 3)) (o : Fin 512) :
    iblk m c 2 t (ix3 (0 : Fin 1) (0 : Fin 1) o) = m ((c : Thread nD τ).loc main_arg3) (ix2 e o) := by
  obtain ⟨h0, h1, h2⟩ := idx_w2 t
  have hemb : ((cfg0.win 2).blk t).view.emb (ix3 (0 : Fin 1) (0 : Fin 1) o) = ix3 e (0 : Fin 1) o := by
    funext a; apply Fin.ext
    match a with
    | ⟨0, _⟩ => show win0_2.index t (0 : Fin 3) * 1 + 1 * 0 = e.val; omega
    | ⟨1, _⟩ => show win0_2.index t (1 : Fin 3) * 1 + 1 * 0 = 0; omega
    | ⟨2, _⟩ => show win0_2.index t (2 : Fin 3) * 512 + 1 * o.val = o.val; omega
  show V m c main_v0 (((cfg0.win 2).blk t).view.emb (ix3 (0 : Fin 1) (0 : Fin 1) o)) = _
  rw [hemb, slabs_main_v0 m c]
  exact CastMiddleUnit.shapeCast_ab_a1b_apply _ _ e (0 : Fin 1) o

/-- The bias array window 4 stages is the `[9, 256]` bias argument with a unit axis inserted (a host reshape before the call). -/
theorem slabs_main_v1 (c : Dev nD) : (V m c main_v1 : S9x1x256.Idx → EReal)
    = shapeCast S9x1x256 (m ((c : Thread nD τ).loc main_arg5)) Facts₀.shapeCasts_S9x256_S9x1x256 := by
  show StableHlo.after hostOps0 (fun b => m (c, b)) (Proc.devRef .tc main_v1) = _
  after_results
  rfl

/-- Window 4's block at a point is row `e` of the bias argument, `e` the point's expert. -/
theorem bias4 (c : Dev nD) (t : Fin cfg0.N) (e : Fin 9) (he : e.val = win0_9.index t (0 : Fin 3)) (o : Fin 256) :
    iblk m c 4 t (ix3 (0 : Fin 1) (0 : Fin 1) o) = m ((c : Thread nD τ).loc main_arg5) (ix2 e o) := by
  obtain ⟨h0, h1, h2⟩ := idx_w4 t
  have hemb : ((cfg0.win 4).blk t).view.emb (ix3 (0 : Fin 1) (0 : Fin 1) o) = ix3 e (0 : Fin 1) o := by
    funext a; apply Fin.ext
    match a with
    | ⟨0, _⟩ => show win0_4.index t (0 : Fin 3) * 1 + 1 * 0 = e.val; omega
    | ⟨1, _⟩ => show win0_4.index t (1 : Fin 3) * 1 + 1 * 0 = 0; omega
    | ⟨2, _⟩ => show win0_4.index t (2 : Fin 3) * 256 + 1 * o.val = o.val; omega
  show V m c main_v1 (((cfg0.win 4).blk t).view.emb (ix3 (0 : Fin 1) (0 : Fin 1) o)) = _
  rw [hemb, slabs_main_v1 m c]
  exact CastMiddleUnit.shapeCast_ab_a1b_apply _ _ e (0 : Fin 1) o

/-- The bias array window 6 stages is the `[9, 128]` bias argument with a unit axis inserted (a host reshape before the call). -/
theorem slabs_main_v2 (c : Dev nD) : (V m c main_v2 : S9x1x128.Idx → EReal)
    = shapeCast S9x1x128 (m ((c : Thread nD τ).loc main_arg7)) Facts₀.shapeCasts_S9x128_S9x1x128 := by
  show StableHlo.after hostOps0 (fun b => m (c, b)) (Proc.devRef .tc main_v2) = _
  after_results
  rfl

/-- Window 6's block at a point is row `e` of the bias argument, `e` the point's expert. -/
theorem bias6 (c : Dev nD) (t : Fin cfg0.N) (e : Fin 9) (he : e.val = win0_9.index t (0 : Fin 3)) (o : Fin 128) :
    iblk m c 6 t (ix3 (0 : Fin 1) (0 : Fin 1) o) = m ((c : Thread nD τ).loc main_arg7) (ix2 e o) := by
  obtain ⟨h0, h1, h2⟩ := idx_w6 t
  have hemb : ((cfg0.win 6).blk t).view.emb (ix3 (0 : Fin 1) (0 : Fin 1) o) = ix3 e (0 : Fin 1) o := by
    funext a; apply Fin.ext
    match a with
    | ⟨0, _⟩ => show win0_6.index t (0 : Fin 3) * 1 + 1 * 0 = e.val; omega
    | ⟨1, _⟩ => show win0_6.index t (1 : Fin 3) * 1 + 1 * 0 = 0; omega
    | ⟨2, _⟩ => show win0_6.index t (2 : Fin 3) * 128 + 1 * o.val = o.val; omega
  show V m c main_v2 (((cfg0.win 6).blk t).view.emb (ix3 (0 : Fin 1) (0 : Fin 1) o)) = _
  rw [hemb, slabs_main_v2 m c]
  exact CastMiddleUnit.shapeCast_ab_a1b_apply _ _ e (0 : Fin 1) o

/-- The bias array window 8 stages is the `[9, 16]` bias argument with a unit axis inserted (a host reshape before the call). -/
theorem slabs_main_v3 (c : Dev nD) : (V m c main_v3 : S9x1x16.Idx → EReal)
    = shapeCast S9x1x16 (m ((c : Thread nD τ).loc main_arg9)) Facts₀.shapeCasts_S9x16_S9x1x16 := by
  show StableHlo.after hostOps0 (fun b => m (c, b)) (Proc.devRef .tc main_v3) = _
  after_results
  rfl

/-- Window 8's block at a point is row `e` of the bias argument, `e` the point's expert. -/
theorem bias8 (c : Dev nD) (t : Fin cfg0.N) (e : Fin 9) (he : e.val = win0_9.index t (0 : Fin 3)) (o : Fin 16) :
    iblk m c 8 t (ix3 (0 : Fin 1) (0 : Fin 1) o) = m ((c : Thread nD τ).loc main_arg9) (ix2 e o) := by
  obtain ⟨h0, h1, h2⟩ := idx_w8 t
  have hemb : ((cfg0.win 8).blk t).view.emb (ix3 (0 : Fin 1) (0 : Fin 1) o) = ix3 e (0 : Fin 1) o := by
    funext a; apply Fin.ext
    match a with
    | ⟨0, _⟩ => show win0_8.index t (0 : Fin 3) * 1 + 1 * 0 = e.val; omega
    | ⟨1, _⟩ => show win0_8.index t (1 : Fin 3) * 1 + 1 * 0 = 0; omega
    | ⟨2, _⟩ => show win0_8.index t (2 : Fin 3) * 16 + 1 * o.val = o.val; omega
  show V m c main_v3 (((cfg0.win 8).blk t).view.emb (ix3 (0 : Fin 1) (0 : Fin 1) o)) = _
  rw [hemb, slabs_main_v3 m c]
  exact CastMiddleUnit.shapeCast_ab_a1b_apply _ _ e (0 : Fin 1) o

/-! ## What a point writes back -/

/-- A stored block, as one function: if at every entry the perceptron of the loads is `H` there, the block is `H`. -/
theorem block_eq (X0 : Vec Ideal S2048x512 .f32) (X1 : Vec Ideal S1x512x512 .f32) (X2 : Vec Ideal S1x1x512 .f32)
    (X3 : Vec Ideal S1x256x512 .f32) (X4 : Vec Ideal S1x1x256 .f32) (X5 : Vec Ideal S1x128x256 .f32)
    (X6 : Vec Ideal S1x1x128 .f32) (X7 : Vec Ideal S1x16x128 .f32) (X8 : Vec Ideal S1x1x16 .f32)
    (H : S1x2048x16.Idx → EReal)
    (h : ∀ (u : Fin 1) (p : Fin 2048) (q : Fin 16), perceptron (fun k => X0 (ix2 p k))
          (fun o k => X1 (ix3 (0 : Fin 1) o k)) (fun o => X2 (ix3 (0 : Fin 1) (0 : Fin 1) o))
          (fun o k => X3 (ix3 (0 : Fin 1) o k)) (fun o => X4 (ix3 (0 : Fin 1) (0 : Fin 1) o))
          (fun o k => X5 (ix3 (0 : Fin 1) o k)) (fun o => X6 (ix3 (0 : Fin 1) (0 : Fin 1) o))
          (fun o k => X7 (ix3 (0 : Fin 1) o k)) (fun o => X8 (ix3 (0 : Fin 1) (0 : Fin 1) o)) q = H (ix3 u p q)) :
    k0_pay1 (F := Ideal) (k0_pay2 X0 X1 X2 X3 X4 X5 X6) (Scalar.ofBits .f32 0x00000000#32) X7 X8 = H := by
  funext j
  obtain ⟨u, p, q, rfl⟩ : ∃ (u : Fin 1) (p : Fin 2048) (q : Fin 16), j = ix3 u p q := ⟨j 0, j 1, j 2, eq_ix3 j⟩
  exact (Body.payload_apply X0 X1 X2 X3 X4 X5 X6 X7 X8 u p q).trans (h u p q)

/-- The experts' logits of the argument arrays as launched: what the output array is to hold. -/
def G (c : Dev nD) : S9x16384x16.Idx → EReal :=
  logits (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- At a point, the perceptron of the nine blocks at entry `(u, p, q)` is `G` at that entry's place in the array: the
    rows' block is the point's tile of rows, the weight and bias blocks are the point's expert's. -/
theorem entry (c : Dev nD) (t : Fin cfg0.N) (u : Fin 1) (p : Fin 2048) (q : Fin 16) :
    perceptron (fun k => iblk m c 0 t (ix2 p k))
          (fun o k => iblk m c 1 t (ix3 (0 : Fin 1) o k)) (fun o => iblk m c 2 t (ix3 (0 : Fin 1) (0 : Fin 1) o))
          (fun o k => iblk m c 3 t (ix3 (0 : Fin 1) o k)) (fun o => iblk m c 4 t (ix3 (0 : Fin 1) (0 : Fin 1) o))
          (fun o k => iblk m c 5 t (ix3 (0 : Fin 1) o k)) (fun o => iblk m c 6 t (ix3 (0 : Fin 1) (0 : Fin 1) o))
          (fun o k => iblk m c 7 t (ix3 (0 : Fin 1) o k)) (fun o => iblk m c 8 t (ix3 (0 : Fin 1) (0 : Fin 1) o)) q
      = G m c (((cfg0.win 9).blk t).view.emb (ix3 u p q)) := by
  obtain ⟨_, h90, h91⟩ := idx_w9 t
  have hp := p.isLt
  obtain ⟨e, he⟩ : ∃ e : Fin 9, e.val = win0_9.index t (0 : Fin 3) := ⟨⟨win0_9.index t (0 : Fin 3), by omega⟩, rfl⟩
  obtain ⟨r, hr⟩ : ∃ r : Fin 16384, r.val = win0_9.index t (1 : Fin 3) * 2048 + p.val :=
    ⟨⟨win0_9.index t (1 : Fin 3) * 2048 + p.val, by omega⟩, rfl⟩
  rw [emb9 t u p q e r he hr]
  unfold G
  rw [logits_ix3]
  unfold logitAt
  simp only [rows0 m c t p r hr, V_main_arg0 m c, weights1 m c t e he, V_main_arg2 m c, bias2 m c t e he,
    weights3 m c t e he, V_main_arg4 m c, bias4 m c t e he, weights5 m c t e he, V_main_arg6 m c, bias6 m c t e he,
    weights7 m c t e he, V_main_arg8 m c, bias8 m c t e he]

theorem hz2 : (![0, 0] : Fin 2 → Nat) = fun _ => 0 := funext fun a => by fin_cases a <;> rfl
theorem hz3 : (![0, 0, 0] : Fin 3 → Nat) = fun _ => 0 := funext fun a => by fin_cases a <;> rfl

/-- The block grid point `t` writes back is the restriction of `G` to that point's block of the output array. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz3]
  simp only [View.ld_unit_zero (S := S2048x512) hz2, View.ld_unit_zero (S := S1x512x512) hz3,
    View.ld_unit_zero (S := S1x1x512) hz3, View.ld_unit_zero (S := S1x256x512) hz3, View.ld_unit_zero (S := S1x1x256) hz3,
    View.ld_unit_zero (S := S1x128x256) hz3, View.ld_unit_zero (S := S1x1x128) hz3, View.ld_unit_zero (S := S1x16x128) hz3,
    View.ld_unit_zero (S := S1x1x16) hz3]
  exact block_eq (iblk m c 0 t) (iblk m c 1 t) (iblk m c 2 t) (iblk m c 3 t) (iblk m c 4 t) (iblk m c 5 t) (iblk m c 6 t)
    (iblk m c 7 t) (iblk m c 8 t) (((cfg0.win 9).blk t).view.read (Elt Ideal) (G m c)) (fun u p q => entry m c t u p q)

/-! ## The blocks tile the array -/

/-- An index of the array is in point `t`'s block iff each coordinate is in the block's range on its axis. -/
theorem mem_blk (t : Fin cfg0.N) (i : S9x16384x16.Idx) :
    i ∈ ((cfg0.win 9).blk t).view.set ↔ ∀ a : Fin 3, win0_9.index t a * S1x2048x16.size a ≤ (i a).val ∧ (i a).val < win0_9.index t a * S1x2048x16.size a + S1x2048x16.size a := by
  show i ∈ ((View.whole main_v4).slice (win0_9.rect t)).set ↔ _
  rw [View.set_slice_whole, Rect.mem_set_unit]
  exact Iff.rfl

/-- Every index `(e, r, o)` is in the block of the point (row tile `r / 2048`, expert `e`). -/
theorem cover (i : S9x16384x16.Idx) :
    ∃ t : Fin cfg0.N, (cfg0.win 9).flush t = true ∧ i ∈ ((cfg0.win 9).blk t).view.set := by
  have hi0 : (i 0).val < 9 := (i 0).isLt
  have hi1 : (i 1).val < 16384 := (i 1).isLt
  have hi2 : (i 2).val < 16 := (i 2).isLt
  obtain ⟨t, ht⟩ := idx_onto ⟨(i 0).val, hi0⟩ ⟨(i 1).val / 2048, by omega⟩
  have q0 : win0_9.index t (0 : Fin 3) = (i 0).val := congrFun ht 0
  have q1 : win0_9.index t (1 : Fin 3) = (i 1).val / 2048 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 16 ≤ (i 2).val ∧ (i 2).val < win0_9.index t (2 : Fin 3) * 16 + 16; omega

/-- The output array after the region is the experts' logits of the argument arrays: every written block restricts `G`,
    and the blocks cover the array. -/
theorem final (c : Dev nD) : (dats m 0 c).arrAt 9 cfg0.N = G m c :=
  (dats m 0 c).arrAt_eq_of_cover 9 (G m c) (fun t _ => flushed_eq m c t) cover

end Cert.KernelIdeal.Blocks

end
-- ==== Proof.Routed.lean ====
/-
  What both programs do with the `[9, 16384, 16]` array of logits: route, then normalise. ONE function.

  Sample `r` is routed to expert `min(position r, 8)` (a negative value wrapped by 9, as array indexing does): the host
  gathers row `(expert, r, ·)` of the logits, and each gathered row of 16 logits goes through the softmax — the row's
  maximum subtracted, exponentials, divided by their sum. Both programs apply exactly these host operations to their
  logits and to `position`; the chain is named here once, as a function of the logits and of `position`, and is never
  opened: equal logits give equal results.
-/
import proofs.«168519_j25220047962428_1_alg».proof.Proof.Gen.ReferenceIdeal.Read

noncomputable section

namespace Cert.ReferenceIdeal.Routed

open Cert.ReferenceIdeal Cert.ReferenceIdeal.Gen Cert.ReferenceIdeal.Read Idealize.ShloMosaic

/-- Row `r` of the result: the logits of sample `r`'s expert (the gather's start indices are computed from `position`). -/
def gathered (L : FVec Ideal S9x16384x16 .f32) (pos : IVec S16384 32) : FVec Ideal S16384x16 .f32 :=
  Host.gather gather_S9x16384x16_S16384x2_S16384x16_1_01_n_n_01_1_1116 L (val_main_v35 (F := Ideal) pos)

/-- The exponentials of a row's entries less the row's maximum. -/
def shiftedExp (g : FVec Ideal S16384x16 .f32) : FVec Ideal S16384x16 .f32 :=
  Host.exp (F := Ideal) (subf g (broadcastInDim S16384x16 ![0, 1] bcast_S16384x1_S16384x16_0_1
    (broadcastInDim S16384x1 ![0] bcast_S16384_S16384x1_0
      (maximumf (val_main_v38 (F := Ideal))
        (Host.reduce (FloatOps.maximumf (F := Ideal) (φ := .f32)) g (val_main_cst (F := Ideal)) reducesTo_S16384x16_S16384_d1 h_S_)))))

/-- The softmax of every row. -/
def softmaxRows (g : FVec Ideal S16384x16 .f32) : FVec Ideal S16384x16 .f32 :=
  Host.divf (F := Ideal) (shiftedExp g) (broadcastInDim S16384x16 ![0, 1] bcast_S16384x1_S16384x16_0_1
    (broadcastInDim S16384x1 ![0] bcast_S16384_S16384x1_0
      (Host.reduceAdd (F := Ideal) (shiftedExp g) (val_main_cst_5 (F := Ideal)) reducesTo_S16384x16_S16384_d1 h_S_)))

/-- Route, then normalise. -/
def routed (L : FVec Ideal S9x16384x16 .f32) (pos : IVec S16384 32) : FVec Ideal S16384x16 .f32 :=
  softmaxRows (gathered L pos)

/-- The reference's result is `routed` of its logits and of `position`. -/
theorem result_eq (x0 : (⟨S16384x512, .f32⟩ : BufTy).Contents (Elt Ideal)) (x1 : (⟨S16384, .i32⟩ : BufTy).Contents (Elt Ideal)) (x2 : (⟨S9x512x512, .f32⟩ : BufTy).Contents (Elt Ideal)) (x3 : (⟨S9x512, .f32⟩ : BufTy).Contents (Elt Ideal))
    (x4 : (⟨S9x256x512, .f32⟩ : BufTy).Contents (Elt Ideal)) (x5 : (⟨S9x256, .f32⟩ : BufTy).Contents (Elt Ideal)) (x6 : (⟨S9x128x256, .f32⟩ : BufTy).Contents (Elt Ideal))
    (x7 : (⟨S9x128, .f32⟩ : BufTy).Contents (Elt Ideal)) (x8 : (⟨S9x16x128, .f32⟩ : BufTy).Contents (Elt Ideal)) (x9 : (⟨S9x16, .f32⟩ : BufTy).Contents (Elt Ideal)) :
    val_main_v47 (F := Ideal) x0 x1 x2 x3 x4 x5 x6 x7 x8 x9
      = routed (val_main_v21 (F := Ideal) x0 x2 x3 x4 x5 x6 x7 x8 x9) x1 := rfl

end Cert.ReferenceIdeal.Routed

end
-- ==== Proof.KernelRun.lean ====
/-
  The idealized kernel's run, with its result named.

  After the region the output array holds the experts' logits (`Blocks.final`); the host operations that follow route
  each sample to its expert's row and normalise it. Read off the frame run, the program's result is `routed` — the one
  function both programs end with — of those logits and of `position`, and every argument array ends as launched.
-/
import proofs.«168519_j25220047962428_1_alg».proof.Proof.KernelLogits
import proofs.«168519_j25220047962428_1_alg».proof.Proof.Routed

set_option maxRecDepth 16384

noncomputable section

namespace Cert.KernelIdeal.Result

open Cert.KernelIdeal Cert.KernelIdeal.Gen Idealize.ShloMosaic Idealize.ShloMosaic.TcCoe
open Idealize.SL Idealize.SL.Sem
open Idealize.ShloMosaic.Pipeline (Dat Cfg Window)
open Cert.ReferenceIdeal.Routed (routed)

variable (m : (ℓ : Loc nD τ sig) → Buf (Elt Ideal) ℓ) (ρ : Dev nD → PrngReg)

set_option maxHeartbeats 2000000 in
/-- The host operations after the region, applied to what the region leaves, are `routed` of the output array and of
    `position` (which no window stages and no host operation writes). -/
theorem tail_eq (c : Dev nD) :
    Pipeline.afterTail₀ cfgs (dats m) 0 (V0 m) [hostOps1] c main_v32
      = routed ((dats m 0 c).arrAt 9 cfg0.N) (m ((c : Thread nD τ).loc main_arg1)) := by
  have h4 : Pipeline.withArrays (cfgs 0).spec c (V0 m c) (fun w => (dats m 0 c).arrAt w (cfgs 0).N) (Proc.devRef .tc main_v4)
      = (dats m 0 c).arrAt 9 cfg0.N := Pipeline.withArrays_arr spec0 launch0.win.arr_inj c _ _ 9
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v32) = _
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [h4, h1]
  rfl

/-- The run: the result is `routed` of the experts' logits of the arguments and of `position`; the arguments end unchanged. -/
theorem run : θ_run defs (onTc (τ := τ) (main (F := Ideal))) ⟨m, fun _ => 0, ρ⟩ (fun r => ∀ c : Dev nD,
      r.2.mem ((c.tc : Thread nD τ).loc main_v32) = routed (Blocks.G m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v32 (Pipeline.mem_restRefs_of main_v32 (by decide) (by decide))).trans
        ((tail_eq m c).trans (congrArg (fun L => routed L (m ((c.tc : Thread nD τ).loc main_arg1))) (Blocks.final m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c)⟩)
    (run_main m ρ)

end Cert.KernelIdeal.Result

end
-- ==== Proof.RefLogits.lean ====
/-
  The reference's `[9, 16384, 16]` array of logits is the experts' perceptrons (`Experts.logits`).

  The reference computes every expert on every row with four contractions over the feature axis, each followed by the
  bias broadcast over the rows and, for the first three, the maximum with a zero splat. Read at `(e, r, o)`, a
  contraction is the inner product of the previous layer's row `(e, r, ·)` with the weight row `(e, o, ·)`; the first one
  is printed as `W₁ · xᵀ` and then transposed, so its products come with the factors in the other order, which
  commutativity of the product on the extended reals undoes.
-/
import proofs.«168519_j25220047962428_1_alg».proof.Proof.Gen.ReferenceIdeal.Read
import proofs.«168519_j25220047962428_1_alg».proof.Proof.Perceptron

noncomputable section

namespace Cert.ReferenceIdeal.Logits

open Cert.ReferenceIdeal Cert.ReferenceIdeal.Read Idealize.ShloMosaic Idealize.ShloMosaic.ValueIdx Cert.Experts

variable (x0 : (⟨S16384x512, .f32⟩ : BufTy).Contents (Elt Ideal)) (x2 : (⟨S9x512x512, .f32⟩ : BufTy).Contents (Elt Ideal)) (x3 : (⟨S9x512, .f32⟩ : BufTy).Contents (Elt Ideal))
    (x4 : (⟨S9x256x512, .f32⟩ : BufTy).Contents (Elt Ideal)) (x5 : (⟨S9x256, .f32⟩ : BufTy).Contents (Elt Ideal)) (x6 : (⟨S9x128x256, .f32⟩ : BufTy).Contents (Elt Ideal))
    (x7 : (⟨S9x128, .f32⟩ : BufTy).Contents (Elt Ideal)) (x8 : (⟨S9x16x128, .f32⟩ : BufTy).Contents (Elt Ideal)) (x9 : (⟨S9x16, .f32⟩ : BufTy).Contents (Elt Ideal))

/-- The first hidden layer at `(e, r, o)`. -/
theorem hidden1_apply (e : Fin 9) (r : Fin 16384) (o : Fin 512) :
    val_main_v7 (F := Ideal) x0 x2 x3 (ix3 e r o)
      = relu (layer (fun k => x0 (ix2 r k)) (fun o k => x2 (ix3 e o k)) (fun o => x3 (ix2 e o)) o) := by
  rw [val_main_v7_apply, val_main_v6_apply, val_main_v3_apply, val_main_v2_apply, val_main_v5_apply, val_main_v4_apply,
    val_main_call0_v0_apply, val_main_call0_cst_apply]
  have e1 : ∀ k : Fin 512, lidx_main_v2 (idx_main_v3 (ix3 e r o)) k = ix3 e o k := fun k => funext fun a => Fin.ext (by match a with | ⟨0, _⟩ => rfl | ⟨1, _⟩ => rfl | ⟨2, _⟩ => rfl)
  have e2 : ∀ k : Fin 512, ridx_main_v2 (idx_main_v3 (ix3 e r o)) k = ix2 r k := fun k => funext fun a => Fin.ext (by match a with | ⟨0, _⟩ => rfl | ⟨1, _⟩ => rfl)
  have e3 : idx_main_v4 (idx_main_v5 (ix3 e r o)) = ix2 e o := funext fun a => Fin.ext (by match a with | ⟨0, _⟩ => rfl | ⟨1, _⟩ => rfl)
  simp only [e1, e2, e3]
  show max ((∑ k : Fin 512, x2 (ix3 e o k) * x0 (ix2 r k)) + x3 (ix2 e o)) zeroWord
    = max ((∑ k : Fin 512, x0 (ix2 r k) * x2 (ix3 e o k)) + x3 (ix2 e o)) zeroWord
  exact congrArg (fun s => max (s + x3 (ix2 e o)) zeroWord) (Finset.sum_congr rfl fun k _ => mul_comm _ _)

/-- The second hidden layer at `(e, r, o)`. -/
theorem hidden2_apply (e : Fin 9) (r : Fin 16384) (o : Fin 256) :
    val_main_v12 (F := Ideal) x0 x2 x3 x4 x5 (ix3 e r o)
      = relu (layer (fun k => relu (layer (fun k => x0 (ix2 r k)) (fun o k => x2 (ix3 e o k)) (fun o => x3 (ix2 e o)) k))
          (fun o k => x4 (ix3 e o k)) (fun o => x5 (ix2 e o)) o) := by
  rw [val_main_v12_apply, val_main_v11_apply, val_main_v8_apply, val_main_v10_apply, val_main_v9_apply,
    val_main_call1_v0_apply, val_main_call1_cst_apply]
  have e1 : ∀ k : Fin 512, lidx_main_v8 (ix3 e r o) k = ix3 e r k := fun k => funext fun a => Fin.ext (by match a with | ⟨0, _⟩ => rfl | ⟨1, _⟩ => rfl | ⟨2, _⟩ => rfl)
  have e2 : ∀ k : Fin 512, ridx_main_v8 (ix3 e r o) k = ix3 e o k := fun k => funext fun a => Fin.ext (by match a with | ⟨0, _⟩ => rfl | ⟨1, _⟩ => rfl | ⟨2, _⟩ => rfl)
  have e3 : idx_main_v9 (idx_main_v10 (ix3 e r o)) = ix2 e o := funext fun a => Fin.ext (by match a with | ⟨0, _⟩ => rfl | ⟨1, _⟩ => rfl)
  simp only [e1, e2, e3, hidden1_apply x0 x2 x3]
  rfl

/-- The third hidden layer at `(e, r, o)`. -/
theorem hidden3_apply (e : Fin 9) (r : Fin 16384) (o : Fin 128) :
    val_main_v17 (F := Ideal) x0 x2 x3 x4 x5 x6 x7 (ix3 e r o)
      = relu (layer (fun k => relu (layer (fun k => relu (layer (fun k => x0 (ix2 r k)) (fun o k => x2 (ix3 e o k))
              (fun o => x3 (ix2 e o)) k)) (fun o k => x4 (ix3 e o k)) (fun o => x5 (ix2 e o)) k))
          (fun o k => x6 (ix3 e o k)) (fun o => x7 (ix2 e o)) o) := by
  rw [val_main_v17_apply, val_main_v16_apply, val_main_v13_apply, val_main_v15_apply, val_main_v14_apply,
    val_main_call2_v0_apply, val_main_call2_cst_apply]
  have e1 : ∀ k : Fin 256, lidx_main_v13 (ix3 e r o) k = ix3 e r k := fun k => funext fun a => Fin.ext (by match a with | ⟨0, _⟩ => rfl | ⟨1, _⟩ => rfl | ⟨2, _⟩ => rfl)
  have e2 : ∀ k : Fin 256, ridx_main_v13 (ix3 e r o) k = ix3 e o k := fun k => funext fun a => Fin.ext (by match a with | ⟨0, _⟩ => rfl | ⟨1, _⟩ => rfl | ⟨2, _⟩ => rfl)
  have e3 : idx_main_v14 (idx_main_v15 (ix3 e r o)) = ix2 e o := funext fun a => Fin.ext (by match a with | ⟨0, _⟩ => rfl | ⟨1, _⟩ => rfl)
  simp only [e1, e2, e3, hidden2_apply x0 x2 x3 x4 x5]
  rfl

/-- The array the reference gathers from is `Experts.logits` of its arguments. -/
theorem logits_eq :
    val_main_v21 (F := Ideal) x0 x2 x3 x4 x5 x6 x7 x8 x9 = logits x0 x2 x3 x4 x5 x6 x7 x8 x9 := by
  funext i
  obtain ⟨e, r, o, rfl⟩ : ∃ (e : Fin 9) (r : Fin 16384) (o : Fin 16), i = ix3 e r o := ⟨i 0, i 1, i 2, eq_ix3 i⟩
  rw [logits_ix3, val_main_v21_apply, val_main_v18_apply, val_main_v20_apply, val_main_v19_apply]
  have e1 : ∀ k : Fin 128, lidx_main_v18 (ix3 e r o) k = ix3 e r k := fun k => funext fun a => Fin.ext (by match a with | ⟨0, _⟩ => rfl | ⟨1, _⟩ => rfl | ⟨2, _⟩ => rfl)
  have e2 : ∀ k : Fin 128, ridx_main_v18 (ix3 e r o) k = ix3 e o k := fun k => funext fun a => Fin.ext (by match a with | ⟨0, _⟩ => rfl | ⟨1, _⟩ => rfl | ⟨2, _⟩ => rfl)
  have e3 : idx_main_v19 (idx_main_v20 (ix3 e r o)) = ix2 e o := funext fun a => Fin.ext (by match a with | ⟨0, _⟩ => rfl | ⟨1, _⟩ => rfl)
  simp only [e1, e2, e3, hidden3_apply x0 x2 x3 x4 x5 x6 x7]
  rfl

end Cert.ReferenceIdeal.Logits

end
-- ==== Proof.lean ====
/-
  The certificate of a mixture of nine expert perceptrons against its dense jnp reference.

  Both programs compute, for each of 16384 samples, the softmax of the 16 logits of ONE of nine four-layer perceptrons —
  the expert `min(position, 8)` routes the sample to. Each runs every expert on every sample first (the array
  `Experts.logits`, `[9, 16384, 16]`), gathers each sample's row, and normalises. The kernel computes the logits
  in a Pallas call over 72 grid points (a tile of 2048 rows and one expert per point, the matrix products on operands
  cast to bf16 and accumulated in f32); the reference with four batched contractions. On the extended reals the cast is
  the identity and a matrix product is a finite sum of products, so both arrays of logits are the same function of the
  arguments: the kernel's by its value at an entry and the tiling of the output (`KernelIdeal.Blocks.final`), the
  reference's operation by operation (`ReferenceIdeal.Logits.logits_eq`, which commutes the factors of the first
  layer's products). The routing and the softmax are the same host operations in both programs and are carried as one
  function, `routed`, never opened. No law used needs the inputs finite, so the precondition is not opened; the ideal
  pass rewrote nothing, so `preserves` asks nothing. The three frames are the generated ones (the reference's: its
  generated run with the result dropped).
-/
import proofs.«168519_j25220047962428_1_alg».proof.Defs
import proofs.«168519_j25220047962428_1_alg».proof.Proof.Gen.Kernel
import proofs.«168519_j25220047962428_1_alg».proof.Proof.Gen.Kernel.Skeleton
import proofs.«168519_j25220047962428_1_alg».proof.Proof.Gen.Kernel.Launch
import proofs.«168519_j25220047962428_1_alg».proof.Proof.Gen.Kernel.Points
import proofs.«168519_j25220047962428_1_alg».proof.Proof.Gen.Kernel.Frame
import proofs.«168519_j25220047962428_1_alg».proof.Proof.Gen.KernelIdeal
import proofs.«168519_j25220047962428_1_alg».proof.Proof.Gen.KernelIdeal.Skeleton
import proofs.«168519_j25220047962428_1_alg».proof.Proof.Gen.KernelIdeal.Launch
import proofs.«168519_j25220047962428_1_alg».proof.Proof.Gen.KernelIdeal.Points
import proofs.«168519_j25220047962428_1_alg».proof.Proof.Gen.KernelIdeal.Frame
import proofs.«168519_j25220047962428_1_alg».proof.Proof.Gen.ReferenceIdeal
import proofs.«168519_j25220047962428_1_alg».proof.Proof.Gen.ReferenceIdeal.Run
import proofs.«168519_j25220047962428_1_alg».proof.Proof.Gen.ReferenceIdeal.Read
import proofs.«168519_j25220047962428_1_alg».proof.Proof.Gen.Pre_finite_inputs
import proofs.«168519_j25220047962428_1_alg».proof.Proof.KernelRun
import proofs.«168519_j25220047962428_1_alg».proof.Proof.RefLogits
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end at `routed` of the experts' logits of the arguments and of `position`: the kernel's by its run
    (`KernelIdeal.Result.run`), the reference's by its generated run, its result read as `routed` of its own logits
    (`Routed.result_eq`), those logits being `Experts.logits` (`Logits.logits_eq`), at arguments that agree. -/
theorem algebraic : Cert.algebraic_KernelIdeal_ReferenceIdeal := by
  intro m ρ m' ρ' _ hagree
  refine ⟨fun c => Cert.ReferenceIdeal.Routed.routed (Cert.KernelIdeal.Blocks.G m c) (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v47_eq, Cert.ReferenceIdeal.Routed.result_eq, Cert.ReferenceIdeal.Logits.logits_eq,
    h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
